-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S16x8 .f32) (main_arg6 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x8 .f32 := Host.absf main_arg5
  let main_cst_6 : FVec F S_ .f32 := constant S_ .f32 0x7F800000#32
  let main_v20 : FVec F S16x8 .f32 := broadcastInDim S16x8 ![] bcast_S_S16x8 main_cst_6
  let main_v21 : IVec S16x8 1 := cmpf .olt main_v19 main_v20
  let main_c_7 : IVec S_ 1 := constantI S_ 1 1#1
  let main_v22 : IVec S_ 1 := (fun x v => Host.reduce IntOp.andi x v reducesTo_S16x8_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) (main_arg5 : FVec F S16x8 .f32) (main_arg6 : FVec F S8 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x8 : Shape := ⟨2, ![16, 8]⟩
abbrev S8 : Shape := ⟨1, ![8]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x512 : Shape := ⟨2, ![4000, 512]⟩
abbrev S4000x16 : Shape := ⟨2, ![4000, 16]⟩
abbrev S3300000x16 : Shape := ⟨2, ![3300000, 16]⟩
abbrev S1x16 : Shape := ⟨2, ![1, 16]⟩
abbrev S100000x8 : Shape := ⟨2, ![100000, 8]⟩
abbrev S4000x8 : Shape := ⟨2, ![4000, 8]⟩
abbrev S3300000x8 : Shape := ⟨2, ![3300000, 8]⟩
abbrev S1x8 : Shape := ⟨2, ![1, 8]⟩
abbrev S4000 : Shape := ⟨1, ![4000]⟩
abbrev S4000x1 : Shape := ⟨2, ![4000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x8, .f32⟩
  | .hbm, ⟨6, _⟩ => ⟨S8, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x8, .f32⟩
  | .hbm, ⟨68, _⟩ => ⟨S3300000x1, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x8, .f32⟩
  | .hbm, ⟨78, _⟩ => ⟨S3300000x8, .f32⟩
  | .hbm, ⟨79, _⟩ => ⟨S3300000x8, .f32⟩
  | .hbm, ⟨80, _⟩ => ⟨S_, .f32⟩
  | .hbm, ⟨81, _⟩ => ⟨S100000x8, .f32⟩
  | .hbm, ⟨82, _⟩ => ⟨S3300000x1, .i32⟩
  | .hbm, ⟨83, _⟩ => ⟨S100000x8, .f32⟩
  | .hbm, ⟨84, _⟩ => ⟨S1x8, .f32⟩
  | .hbm, ⟨85, _⟩ => ⟨S100000x8, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S1x16, .f32⟩
  | .local _ .vmem, ⟨8, _⟩ => ⟨S16x8, .f32⟩
  | .local _ .vmem, ⟨9, _⟩ => ⟨S4000x8, .f32⟩
  | .local _ .vmem, ⟨10, _⟩ => ⟨S4000x8, .f32⟩
  | .local _ .vmem, ⟨11, _⟩ => ⟨S4000x8, .f32⟩
  | .local _ .vmem, ⟨12, _⟩ => ⟨S4000x8, .f32⟩
  | .local _ .vmem, ⟨13, _⟩ => ⟨S1x8, .f32⟩
  | .local _ .vmem, ⟨14, _⟩ => ⟨S4000x8, .f32⟩
  | .local _ .vmem, ⟨15, _⟩ => ⟨S4000x8, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x8_S16x8_0_0 : ∀ a, (![0, 0] : Fin 2 → Nat) a + S16x8.size a ≤ S16x8.size a
  h_S16x8 : 0 < S16x8.numel
  inb_S4000x8_S4000x8_0_0 : ∀ a, (![0, 0] : Fin 2 → Nat) a + S4000x8.size a ≤ S4000x8.size a
  h_S4000x8 : 0 < S4000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  shapeCasts_S8_S1x8 : S8.ShapeCasts S1x8
  shapeCasts_S4000x8_S4000x8 : S4000x8.ShapeCasts S4000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4000x8 : S1x8.Broadcasts S4000x8
  reduces_S4000x8_S4000 : S4000x8.Reduces [1] S4000
  shapeCasts_S4000_S4000x1 : S4000.ShapeCasts S4000x1
  broadcasts_S4000x1_S4000x8 : S4000x1.Broadcasts S4000x8
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x8_S4000x8_1_0_0_1_n_n_wf : DotDims.WF S4000x16 S16x8 S4000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x8.size a ≤ S16x8.size a
  hwx1_2 : ∀ i : grid1.Coords, EltTy.bits .f32 = 32 ∨ (Rect.block (s := S16x8) S16x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x8.size a ≤ S100000x8.size a
  hwx1_3 : ∀ i : grid1.Coords, EltTy.bits .f32 = 32 ∨ (Rect.block (s := S100000x8) S4000x8.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x8.size a ≤ S100000x8.size a
  hwx2_0 : ∀ i : grid2.Coords, EltTy.bits .f32 = 32 ∨ (Rect.block (s := S100000x8) S4000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x8.size a ≤ S1x8.size a
  hwx2_1 : ∀ i : grid2.Coords, EltTy.bits .f32 = 32 ∨ (Rect.block (s := S1x8) S1x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x8.size a ≤ S100000x8.size a
  hwx2_2 : ∀ i : grid2.Coords, EltTy.bits .f32 = 32 ∨ (Rect.block (s := S100000x8) S4000x8.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x8_S4000x8_1_0_0_1_n_n : DotDims S4000x16 S16x8 S4000x8 where
  lhsContracting := [1]
  rhsContracting := [0]
  lhsNonContracting := [0]
  rhsNonContracting := [1]
  lhsBatch := []
  rhsBatch := []
  wf := dot_S4000x16_S16x8_S4000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S4000x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S4000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S4000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x8 : Shape := ⟨2, ![16, 8]⟩
abbrev S8 : Shape := ⟨1, ![8]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x8 : Shape := ⟨2, ![100000, 8]⟩
abbrev S3300000x8 : Shape := ⟨2, ![3300000, 8]⟩
abbrev S1x8 : Shape := ⟨2, ![1, 8]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x8, .f32⟩
  | .hbm, ⟨6, _⟩ => ⟨S8, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x8, .f32⟩
  | .hbm, ⟨73, _⟩ => ⟨S3300000x1, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x8, .f32⟩
  | .hbm, ⟨83, _⟩ => ⟨S3300000x8, .f32⟩
  | .hbm, ⟨84, _⟩ => ⟨S3300000x8, .f32⟩
  | .hbm, ⟨85, _⟩ => ⟨S_, .f32⟩
  | .hbm, ⟨86, _⟩ => ⟨S100000x8, .f32⟩
  | .hbm, ⟨87, _⟩ => ⟨S3300000x1, .i32⟩
  | .hbm, ⟨88, _⟩ => ⟨S100000x8, .f32⟩
  | .hbm, ⟨89, _⟩ => ⟨S1x8, .f32⟩
  | .hbm, ⟨90, _⟩ => ⟨S100000x8, .f32⟩
  | .hbm, ⟨91, _⟩ => ⟨S100000x8, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x8, .f32⟩
  | .hbm, ⟨99, _⟩ => ⟨S100000x8, .f32⟩
  | .hbm, ⟨100, _⟩ => ⟨S100000x8, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x8, .f32⟩
  | .hbm, ⟨106, _⟩ => ⟨S100000x8, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x8_S100000x8_1_0_0_1_n_n_wf : DotDims.WF S100000x16 S16x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

class Facts : Prop extends Facts₀ where

variable [Facts]
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«113998_j57312043598543_2_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.Region0.lean ====
/-
  Region 0, the first layer's dense product, as one whole-array function.

  The region's grid has 25 points; point `t` multiplies rows `4000·t … 4000·t + 3999` of the `100000×512` array it
  finds at the first operand by the whole `512×16` array it finds at the second, into rows `4000·t …` of the result.
  Entry `(p, q)` of a point's block product and entry `(4000·t + p, q)` of the one product of the whole arrays are the
  same sum `∑ k, X (4000·t + p, k) · W (k, q)`, and the 25 row blocks fill the result array: after the region the
  result array is the host's whole product of the two arrays, whatever they hold.
-/
import proofs.«113998_j57312043598543_2_alg».proof.Proof.Gen.KernelIdeal.Frame
import proofs.«113998_j57312043598543_2_alg».proof.Proof.LibRowBlock
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

/-- The product of the two whole arrays, as the host takes it. -/
def whole (X : FVec Ideal S100000x512 .f32) (W : FVec Ideal S512x16 .f32) : FVec Ideal S100000x16 .f32 :=
  FloatOps.dotGeneral (DotDims.plain 100000 512 16) none .single X W

theorem hz : (![0, 0] : Fin 2 → Nat) = fun _ => 0 := funext fun a => by fin_cases a <;> rfl

/-- One entry of a point's block product is the entry of the whole product in the block's row of the array. -/
theorem entry (X : FVec Ideal S100000x512 .f32) (W : FVec Ideal S512x16 .f32)
    (x0 : Vec Ideal S4000x512 .f32) (x1 : Vec Ideal S512x16 .f32) (P : Fin 100000) (p : Fin 4000) (q : Fin 16)
    (hx : ∀ k : Fin 512, x0 (ix2 p k) = X (ix2 P k)) (hw : ∀ k : Fin 512, x1 (ix2 k q) = W (ix2 k q)) :
    k0_pay1 (F := Ideal) x0 x1 (ix2 p q) = whole X W (ix2 P q) :=
  Cert.Lib.RowBlock.matmul_eq_dotGeneral none none .single X W
    (truncf .bf16 x0 bitsLt_bf16_f32) (truncf .bf16 x1 bitsLt_bf16_f32) P p q hx hw

variable (V : (c : Dev nD) → (b : Ref sig .tc) → Buf (Elt Ideal) ((c : Thread nD τ).loc b))

/-- The printed index maps over the 25 points: the row-blocked windows move with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed_eq (c : Dev nD) (t : Fin cfg0.N) :
    (dat0 V c).flushed 2 t = ((cfg0.win 2).blk t).view.read (Elt Ideal) (whole (V c main_arg0) (V c main_arg3)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x16) hz]
  obtain ⟨e0, e1, e2, e3, e4, e5⟩ := idx_facts t
  have ht : t.val < 25 := by have h := t.isLt; have hN : cfg0.N = 25 := N_0; omega
  funext j
  obtain ⟨p, q, rfl⟩ : ∃ (p : Fin 4000) (q : Fin 16), j = ix2 p q := ⟨j 0, j 1, eq_ix2 j⟩
  have hP : 4000 * t.val + p.val < 100000 := by have := p.isLt; omega
  show k0_pay1 (F := Ideal) (iblk0 V c 0 t) (iblk0 V c 1 t) (ix2 p q)
    = whole (V c main_arg0) (V c main_arg3) (((cfg0.win 2).blk t).view.emb (ix2 p q))
  have hemb : ((cfg0.win 2).blk t).view.emb (ix2 p q) = ix2 (⟨4000 * t.val + p.val, hP⟩ : Fin 100000) q := by
    funext a; apply Fin.ext
    match a with
    | ⟨0, _⟩ => show win0_2.index t (0 : Fin 2) * 4000 + 1 * p.val = 4000 * t.val + p.val; omega
    | ⟨1, _⟩ => show win0_2.index t (1 : Fin 2) * 16 + 1 * q.val = q.val; omega
  rw [hemb]
  refine entry (V c main_arg0) (V c main_arg3) (iblk0 V c 0 t) (iblk0 V c 1 t) ⟨4000 * t.val + p.val, hP⟩ p q ?_ ?_
  · intro k
    show V c main_arg0 (((cfg0.win 0).blk t).view.emb (ix2 p k)) = V c main_arg0 (ix2 ⟨4000 * t.val + p.val, hP⟩ k)
    refine congrArg (V c main_arg0) ?_
    funext a; apply Fin.ext
    match a with
    | ⟨0, _⟩ => show win0_0.index t (0 : Fin 2) * 4000 + 1 * p.val = 4000 * t.val + p.val; omega
    | ⟨1, _⟩ => show win0_0.index t (1 : Fin 2) * 512 + 1 * k.val = k.val; omega
  · intro k
    show V c main_arg3 (((cfg0.win 1).blk t).view.emb (ix2 k q)) = V c main_arg3 (ix2 k q)
    refine congrArg (V c main_arg3) ?_
    funext a; apply Fin.ext
    match a with
    | ⟨0, _⟩ => show win0_1.index t (0 : Fin 2) * 512 + 1 * k.val = k.val; omega
    | ⟨1, _⟩ => show win0_1.index t (1 : Fin 2) * 16 + 1 * q.val = q.val; omega

/-- An index of the result array is in point `t`'s block iff each coordinate is in the block's range on its axis. -/
theorem mem_blk (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v32).slice (win0_2.rect t)).set ↔ _
  rw [View.set_slice_whole, Rect.mem_set_unit]
  exact Iff.rfl

/-- Every block index in range is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- After the region the result array is the whole product of the two arrays the region finds. -/
theorem final (c : Dev nD) : (dat0 V c).arrAt 2 cfg0.N = whole (V c main_arg0) (V c main_arg3) :=
  (dat0 V c).arrAt_eq_of_cover 2 (whole (V c main_arg0) (V c main_arg3)) (fun t _ => flushed_eq V c t) fun i => by
    have hi0 : (i 0).val < 100000 := (i 0).isLt
    have hi1 : (i 1).val < 16 := (i 1).isLt
    obtain ⟨t, ht⟩ := idx_onto ⟨(i 0).val / 4000, by omega⟩
    have q0 : win0_2.index t (0 : Fin 2) = (i 0).val / 4000 := congrFun ht 0
    have q1 : win0_2.index t (1 : Fin 2) = 0 := congrFun ht 1
    refine ⟨t, flush0_2 t, ?_⟩
    rw [mem_blk]
    intro a
    match a with
    | ⟨0, _⟩ => show win0_2.index t (0 : Fin 2) * 4000 ≤ (i 0).val ∧ (i 0).val < win0_2.index t (0 : Fin 2) * 4000 + 4000; omega
    | ⟨1, _⟩ => show win0_2.index t (1 : Fin 2) * 16 ≤ (i 1).val ∧ (i 1).val < win0_2.index t (1 : Fin 2) * 16 + 16; omega

end Cert.KernelIdeal.Region0

end
-- ==== Proof.Region1.lean ====
/-
  Region 1, the second layer's dense part, as one whole-array function.

  Point `t` of the 25 takes rows `4000·t …` of the `100000×16` array `H` it finds at the first operand, adds the
  one-row array `B` (`1×16`) along every row, takes the maximum with zero, and multiplies by the whole `16×8` array `W`.
  Entry `(p, q)` of the point's result is `∑ k, max (H (4000·t + p, k) + B (0, k)) 0 · W (k, q)`: entry
  `(4000·t + p, q)` of the host's product of `max (H + B, 0)` — `B` broadcast down the rows — by `W`; the same sum
  term by term. The 25 row blocks fill the result array.
-/
import proofs.«113998_j57312043598543_2_alg».proof.Proof.Gen.KernelIdeal.Frame
import proofs.«113998_j57312043598543_2_alg».proof.Proof.Gen.ReferenceIdeal
import proofs.«113998_j57312043598543_2_alg».proof.Proof.LibRowBlock
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

/-- The host's activation of the whole array: the bias row added down the rows, then the maximum with zero. -/
def act (H : FVec Ideal S100000x16 .f32) (B : FVec Ideal S1x16 .f32) : FVec Ideal S100000x16 .f32 :=
  maximumf (addf H (broadcastInDim S100000x16 ![0, 1] Cert.ReferenceIdeal.Facts₀.bcast_S1x16_S100000x16_0_1 B))
    (broadcastInDim S100000x16 ![] Cert.ReferenceIdeal.Facts₀.bcast_S_S100000x16 (constant S_ .f32 0x00000000#32))

/-- The host's product of the activated array by the weights. -/
def whole (H : FVec Ideal S100000x16 .f32) (B : FVec Ideal S1x16 .f32) (W : FVec Ideal S16x8 .f32) : FVec Ideal S100000x8 .f32 :=
  FloatOps.dotGeneral (DotDims.plain 100000 16 8) none .single (act H B) W

theorem hz : (![0, 0] : Fin 2 → Nat) = fun _ => 0 := funext fun a => by fin_cases a <;> rfl

/-- The activation at an entry: the array's entry plus the bias row's, against zero. -/
theorem act_apply (H : FVec Ideal S100000x16 .f32) (B : FVec Ideal S1x16 .f32) (P : Fin 100000) (k : Fin 16) :
    act H B (ix2 P k) = max (H (ix2 P k) + B (ix2 (0 : Fin 1) k)) (Ideal.ofBits .f32 0x00000000#32) := by
  unfold act
  rw [maximumf_apply, addf_apply, broadcastInDim_oneRow_apply, broadcastInDim_scalar_apply, constant_apply]

/-- The point's activation at an entry of its block. -/
theorem blockAct_apply (x0 : Vec Ideal S4000x16 .f32) (x1 : Vec Ideal S1x16 .f32) (p : Fin 4000) (k : Fin 16) :
    (truncf .bf16 (maximumf (addf (shapeCast S4000x16 x0 shapeCasts_S4000x16_S4000x16)
        (broadcastTo S4000x16 (shapeCast S1x16 x1 shapeCasts_S1x16_S1x16) broadcasts_S1x16_S4000x16))
        (broadcast S4000x16 (Scalar.ofBits (F := Ideal) .f32 0x00000000#32))) bitsLt_bf16_f32 : FVec Ideal S4000x16 .bf16) (ix2 p k)
      = max (x0 (ix2 p k) + x1 (ix2 (0 : Fin 1) k)) (Ideal.ofBits .f32 0x00000000#32) := by
  rw [truncf_apply, maximumf_apply, addf_apply, broadcast_apply, shapeCast_self, shapeCast_self, broadcastTo_1b_ab_apply]
  rfl

/-- One entry of a point's result is the entry of the whole product in the block's row of the array. -/
theorem entry (H : FVec Ideal S100000x16 .f32) (B : FVec Ideal S1x16 .f32) (W : FVec Ideal S16x8 .f32)
    (x0 : Vec Ideal S4000x16 .f32) (x1 : Vec Ideal S1x16 .f32) (x2 : Vec Ideal S16x8 .f32)
    (P : Fin 100000) (p : Fin 4000) (q : Fin 8)
    (hx : ∀ k : Fin 16, x0 (ix2 p k) = H (ix2 P k)) (hb : ∀ k : Fin 16, x1 (ix2 (0 : Fin 1) k) = B (ix2 (0 : Fin 1) k))
    (hw : ∀ k : Fin 16, x2 (ix2 k q) = W (ix2 k q)) :
    k1_pay1 (F := Ideal) x0 x1 x2 (ix2 p q) = whole H B W (ix2 P q) :=
  Cert.Lib.RowBlock.matmul_eq_dotGeneral none none .single (act H B) W _ (truncf .bf16 x2 bitsLt_bf16_f32) P p q
    (fun k => (blockAct_apply x0 x1 p k).trans (by rw [act_apply, hx k, hb k])) hw

variable (V : (c : Dev nD) → (b : Ref sig .tc) → Buf (Elt Ideal) ((c : Thread nD τ).loc b))

/-- The printed index maps over the 25 points: the row-blocked windows move with the point, the bias and weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole function of the arrays the region finds. -/
theorem flushed_eq (c : Dev nD) (t : Fin cfg1.N) :
    (dat1 V c).flushed 3 t
      = ((cfg1.win 3).blk t).view.read (Elt Ideal) (whole (V c main_v45) (V c main_v46) (V c main_arg5)) := by
  show (cfg1.win 3).cut (grid1.coords t) ((dat1 V c).after 3 t) = _
  rw [after1_3]
  unfold out1_3
  rw [View.canon_unit_zero hz]
  simp only [View.ld_unit_zero (S := S4000x16) hz, View.ld_unit_zero (S := S1x16) hz, View.ld_unit_zero (S := S16x8) hz]
  obtain ⟨e0, e1, e2, e3, e4, e5, e6, e7⟩ := idx_facts t
  have ht : t.val < 25 := by have h := t.isLt; have hN : cfg1.N = 25 := N_1; omega
  funext j
  obtain ⟨p, q, rfl⟩ : ∃ (p : Fin 4000) (q : Fin 8), j = ix2 p q := ⟨j 0, j 1, eq_ix2 j⟩
  have hP : 4000 * t.val + p.val < 100000 := by have := p.isLt; omega
  show k1_pay1 (F := Ideal) (iblk1 V c 0 t) (iblk1 V c 1 t) (iblk1 V c 2 t) (ix2 p q)
    = whole (V c main_v45) (V c main_v46) (V c main_arg5) (((cfg1.win 3).blk t).view.emb (ix2 p q))
  have hemb : ((cfg1.win 3).blk t).view.emb (ix2 p q) = ix2 (⟨4000 * t.val + p.val, hP⟩ : Fin 100000) q := by
    funext a; apply Fin.ext
    match a with
    | ⟨0, _⟩ => show win1_3.index t (0 : Fin 2) * 4000 + 1 * p.val = 4000 * t.val + p.val; omega
    | ⟨1, _⟩ => show win1_3.index t (1 : Fin 2) * 8 + 1 * q.val = q.val; omega
  rw [hemb]
  refine entry (V c main_v45) (V c main_v46) (V c main_arg5) (iblk1 V c 0 t) (iblk1 V c 1 t) (iblk1 V c 2 t)
    ⟨4000 * t.val + p.val, hP⟩ p q ?_ ?_ ?_
  · intro k
    show V c main_v45 (((cfg1.win 0).blk t).view.emb (ix2 p k)) = V c main_v45 (ix2 ⟨4000 * t.val + p.val, hP⟩ k)
    refine congrArg (V c main_v45) ?_
    funext a; apply Fin.ext
    match a with
    | ⟨0, _⟩ => show win1_0.index t (0 : Fin 2) * 4000 + 1 * p.val = 4000 * t.val + p.val; omega
    | ⟨1, _⟩ => show win1_0.index t (1 : Fin 2) * 16 + 1 * k.val = k.val; omega
  · intro k
    show V c main_v46 (((cfg1.win 1).blk t).view.emb (ix2 (0 : Fin 1) k)) = V c main_v46 (ix2 (0 : Fin 1) k)
    refine congrArg (V c main_v46) ?_
    funext a; apply Fin.ext
    match a with
    | ⟨0, _⟩ => show win1_1.index t (0 : Fin 2) * 1 + 1 * 0 = 0; omega
    | ⟨1, _⟩ => show win1_1.index t (1 : Fin 2) * 16 + 1 * k.val = k.val; omega
  · intro k
    show V c main_arg5 (((cfg1.win 2).blk t).view.emb (ix2 k q)) = V c main_arg5 (ix2 k q)
    refine congrArg (V c main_arg5) ?_
    funext a; apply Fin.ext
    match a with
    | ⟨0, _⟩ => show win1_2.index t (0 : Fin 2) * 16 + 1 * k.val = k.val; omega
    | ⟨1, _⟩ => show win1_2.index t (1 : Fin 2) * 8 + 1 * q.val = q.val; omega

/-- An index of the result array is in point `t`'s block iff each coordinate is in the block's range on its axis. -/
theorem mem_blk (t : Fin cfg1.N) (i : S100000x8.Idx) :
    i ∈ ((cfg1.win 3).blk t).view.set ↔ ∀ a : Fin 2, win1_3.index t a * S4000x8.size a ≤ (i a).val ∧ (i a).val < win1_3.index t a * S4000x8.size a + S4000x8.size a := by
  show i ∈ ((View.whole main_v47).slice (win1_3.rect t)).set ↔ _
  rw [View.set_slice_whole, Rect.mem_set_unit]
  exact Iff.rfl

/-- Every block index in range is some point's. -/
theorem idx_onto : ∀ q0 : Fin 25, ∃ t : Fin cfg1.N, win1_3.index t = ![q0.val, 0] :=
  (by decide +kernel : ∀ q0 : Fin 25, ∃ t : Fin grid1.N, win1_3.index t = ![q0.val, 0])

/-- After the region the result array is the whole function of the three arrays the region finds. -/
theorem final (c : Dev nD) : (dat1 V c).arrAt 3 cfg1.N = whole (V c main_v45) (V c main_v46) (V c main_arg5) :=
  (dat1 V c).arrAt_eq_of_cover 3 (whole (V c main_v45) (V c main_v46) (V c main_arg5)) (fun t _ => flushed_eq V c t) fun i => by
    have hi0 : (i 0).val < 100000 := (i 0).isLt
    have hi1 : (i 1).val < 8 := (i 1).isLt
    obtain ⟨t, ht⟩ := idx_onto ⟨(i 0).val / 4000, by omega⟩
    have q0 : win1_3.index t (0 : Fin 2) = (i 0).val / 4000 := congrFun ht 0
    have q1 : win1_3.index t (1 : Fin 2) = 0 := congrFun ht 1
    refine ⟨t, flush1_3 t, ?_⟩
    rw [mem_blk]
    intro a
    match a with
    | ⟨0, _⟩ => show win1_3.index t (0 : Fin 2) * 4000 ≤ (i 0).val ∧ (i 0).val < win1_3.index t (0 : Fin 2) * 4000 + 4000; omega
    | ⟨1, _⟩ => show win1_3.index t (1 : Fin 2) * 8 ≤ (i 1).val ∧ (i 1).val < win1_3.index t (1 : Fin 2) * 8 + 8; omega

end Cert.KernelIdeal.Region1

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibHostKeepdims.lean ====
/-
  The host's row reductions kept as a column, read at coordinates on the extended reals: the host's side of
  `max(x, axis=-1, keepdims=True)` and `sum(x, axis=-1, keepdims=True)` on an `[a, b]` matrix.

  * the host's `reduce` with a maximum body over the second axis, from −∞, at row `i`: the fold of `max` from −∞ over
    the row's entries `(i, k)` — and −∞ is neutral for `max`;
  * the host's float sum over the second axis, from an initial value that is zero, at row `i`: the sum of the row's entries;
  * an `[a]` vector broadcast to the column `[a, 1]` along axis 0, at `(i, u)`: the vector at `i`;
  * an `[a, 1]` column broadcast to `[a, b]` along axes `[0, 1]`, at `(i, j)`: the column at `(i, 0)`;
  * an `[n]` vector reshaped to the one-row matrix `[1, n]` is the vector broadcast there along axis 1.
-/
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.Lib.HostKeepdims

open Idealize.ShloMosaic Idealize.ShloMosaic.ValueIdx

variable {α : Type}

/-- Row `i` with column `k` put back on the reduced second axis is `(i, k)`. -/
theorem lift_axis1 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- The float word of −∞ is the least extended real: the maximum with it changes nothing. -/
theorem max_negInf (y : Ideal .f32) : max (Ideal.ofBits .f32 0xFF800000#32) y = y := by
  simp [Ideal.ofBits, Ideal.ieee]

/-- The host's `reduce` with a maximum body over the second axis, from −∞, at row `i`. -/
theorem reduce_maximumf_row {a b : ℕ} (x : FVec Ideal ⟨2, ![a, b]⟩ .f32)
    (h' : (⟨2, ![a, b]⟩ : Shape).ReducesTo [1] (⟨1, ![a]⟩ : Shape)) (hu : 0 < (⟨0, ![]⟩ : Shape).numel) (i : Fin a) :
    Host.reduce FloatOps.maximumf x (constant (⟨0, ![]⟩ : Shape) .f32 0xFF800000#32) h' hu (ix1 i)
      = (Finset.univ : Finset (Fin b)).fold max (Ideal.ofBits .f32 0xFF800000#32) (fun k => x (ix2 i k)) := by
  have h : (⟨2, ![a, b]⟩ : Shape).Reduces [1] (⟨1, ![a]⟩ : Shape) := ⟨h'.1, Nat.one_pos, h'.2⟩
  rw [Host.reduce_eq_fold_single FloatOps.maximumf x _ h' h hu]
  have hf : (x ∘ h.lift (ix1 i)) = fun k : Fin b => x (ix2 i k) := funext fun k => congrArg x (lift_axis1 h i k)
  exact congrArg (fun f => Finset.fold max (Ideal.ofBits .f32 0xFF800000#32) f (Finset.univ : Finset (Fin b))) hf

/-- The host's float sum over the second axis, from zero, at row `i`: the sum of the row's entries. -/
theorem reduceAdd_row {a b : ℕ} (x : FVec Ideal ⟨2, ![a, b]⟩ .f32)
    (h' : (⟨2, ![a, b]⟩ : Shape).ReducesTo [1] (⟨1, ![a]⟩ : Shape)) (hu : 0 < (⟨0, ![]⟩ : Shape).numel) (i : Fin a) :
    Host.reduceAdd x (constant (⟨0, ![]⟩ : Shape) .f32 0x00000000#32) h' hu (ix1 i) = ∑ k : Fin b, x (ix2 i k) := by
  have h : (⟨2, ![a, b]⟩ : Shape).Reduces [1] (⟨1, ![a]⟩ : Shape) := ⟨h'.1, Nat.one_pos, h'.2⟩
  show Ideal.hostReduceAdd h' x _ (ix1 i) = _
  rw [Ideal.hostReduceAdd_single h' h]
  show Ideal.ofBits .f32 0x00000000#32 + _ = _
  rw [Ideal.ofBits_zero_f32, zero_add]
  exact Finset.sum_congr rfl fun k _ => congrArg x (lift_axis1 h i k)

/-- An `[a]` vector broadcast to the column `[a, 1]` along axis 0 reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- An `[a, 1]` column broadcast to `[a, b]` along axes `[0, 1]` reads, at `(i, j)`, the column at `(i, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- An `[n]` vector reshaped to one row is the vector broadcast to `[1, n]` along axis 1. -/
theorem shapeCast_row_eq_broadcastInDim {n : ℕ} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have e2 := shapeCast_apply x h1 i (ix1 (i 1 : Fin n)) (by
    have h0 : (i 0).val = 0 := by have := (i 0).isLt; have e : (i 0).val < 1 := this; omega
    rw [Shape.rowMajor_val_two, Shape.rowMajor_val_one]; show (i 1).val = (i 0).val * n + (i 1).val; rw [h0]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Cert.Lib.HostKeepdims

end
-- ==== Proof.LibRowLogSoftmax.lean ====
/-
  The log-softmax of each row of an `[a, b]` matrix, taken two ways and read at an entry on the extended reals.

  With `M` the maximum of a row `r` (the fold of `max` from −∞ over its entries), the log-softmax of the row at `q` is
  `(r q − M) − log (∑ k, exp (r k − M))` (`rowLogSoftmax`).

  * On the vector unit (`vLogSoftmax`): `multi_reduction <maximumf>` over the second axis from −∞, cast to a column and
    broadcast back, subtracted; `exp`; `multi_reduction <add>` from zero, cast to a column; `log`; broadcast back and
    subtracted from the shifted matrix.
  * On the host (`hLogSoftmax`), as `jax.nn.log_softmax` lowers: `reduce` with a maximum body from −∞, the maximum of
    that with a broadcast −∞ (which changes nothing), broadcast to a column and across the row, subtracted;
    `exponential`; `reduce` add from zero, broadcast to a column; `log`; broadcast across and subtracted.

  Each, at entry `(p, q)`, is `rowLogSoftmax` of row `p` at `q` — for every extended-real matrix: nothing is cancelled
  or distributed, so no finiteness is asked.
-/
import proofs.«113998_j57312043598543_2_alg».proof.Proof.LibKeepdims
import proofs.«113998_j57312043598543_2_alg».proof.Proof.LibHostKeepdims
import Idealize.ShloMosaic.Lib.IdealHost

noncomputable section

open scoped BigOperators

namespace Cert.Lib.RowLogSoftmax

open Idealize.ShloMosaic Idealize.ShloMosaic.ValueIdx Idealize.ShloMosaic.ValueKeepdims Cert.Lib.HostKeepdims

variable {a b : ℕ}

/-- A row's maximum: the fold of `max` from −∞. -/
def rowMax (r : Fin b → EReal) : EReal :=
  (Finset.univ : Finset (Fin b)).fold max (Ideal.ofBits .f32 0xFF800000#32) r

/-- The log-softmax of a row at `q`. -/
def rowLogSoftmax (r : Fin b → EReal) (q : Fin b) : EReal :=
  (r q - rowMax r) - Ideal.log (∑ k : Fin b, Ideal.exp (r k - rowMax r))

/-! ## The pointwise logarithm and exponential at an index -/

theorem log_apply {s : Shape} (v : FVec Ideal s .f32) (i : s.Idx) : log v i = Ideal.log (v i) := rfl
theorem exp_apply {s : Shape} (v : FVec Ideal s .f32) (i : s.Idx) : exp v i = Ideal.exp (v i) := rfl
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

/-! ## On the vector unit -/

/-- Each row less its maximum. -/
def vShift (x : FVec Ideal ⟨2, ![a, b]⟩ .f32) (hr : (⟨2, ![a, b]⟩ : Shape).Reduces [1] (⟨1, ![a]⟩ : Shape))
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec FTy.f32.bits) = FKind.maximumf.neutral .f32 hφ) :
    FVec Ideal ⟨2, ![a, b]⟩ .f32 :=
  subf x (broadcastTo ⟨2, ![a, b]⟩
    (shapeCast ⟨2, ![a, 1]⟩ (multiReduction .maximumf [1] ⟨1, ![a]⟩ x 0xFF800000#32 hr hφ hmax) hc) hb)

/-- The shifted rows less the logarithm of the sum of their exponentials. -/
def vLogSoftmax (x : FVec Ideal ⟨2, ![a, b]⟩ .f32) (hr : (⟨2, ![a, b]⟩ : Shape).Reduces [1] (⟨1, ![a]⟩ : Shape))
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec FTy.f32.bits) = FKind.maximumf.neutral .f32 hφ)
    (hadd : (0x00000000#32 : BitVec FTy.f32.bits) = FKind.add.neutral .f32 hφ) :
    FVec Ideal ⟨2, ![a, b]⟩ .f32 :=
  subf (vShift x hr hc hb hφ hmax) (broadcastTo ⟨2, ![a, b]⟩
    (log (shapeCast ⟨2, ![a, 1]⟩
      (multiReduction .add [1] ⟨1, ![a]⟩ (exp (vShift x hr hc hb hφ hmax)) 0x00000000#32 hr hφ hadd) hc)) hb)

theorem vShift_apply (x : FVec Ideal ⟨2, ![a, b]⟩ .f32) (hr : (⟨2, ![a, b]⟩ : Shape).Reduces [1] (⟨1, ![a]⟩ : Shape))
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec FTy.f32.bits) = FKind.maximumf.neutral .f32 hφ)
    (p : Fin a) (k : Fin b) :
    vShift x hr hc hb hφ hmax (ix2 p k) = x (ix2 p k) - rowMax (fun j => x (ix2 p j)) := by
  unfold vShift
  rw [subf_apply, broadcastTo_a1_ab_apply, shapeCast_a_a1_apply]
  exact congrArg (fun M => x (ix2 p k) - M) (multiReduction_maximumf_row x _ hr hφ hmax p)

theorem vLogSoftmax_apply (x : FVec Ideal ⟨2, ![a, b]⟩ .f32) (hr : (⟨2, ![a, b]⟩ : Shape).Reduces [1] (⟨1, ![a]⟩ : Shape))
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec FTy.f32.bits) = FKind.maximumf.neutral .f32 hφ)
    (hadd : (0x00000000#32 : BitVec FTy.f32.bits) = FKind.add.neutral .f32 hφ) (p : Fin a) (q : Fin b) :
    vLogSoftmax x hr hc hb hφ hmax hadd (ix2 p q) = rowLogSoftmax (fun j => x (ix2 p j)) q := by
  unfold vLogSoftmax rowLogSoftmax
  rw [subf_apply, broadcastTo_a1_ab_apply, vShift_apply, log_apply, shapeCast_a_a1_apply]
  refine congrArg (fun s => (x (ix2 p q) - rowMax fun j => x (ix2 p j)) - Ideal.log s) ?_
  refine (multiReduction_add_row (exp (vShift x hr hc hb hφ hmax)) _ hr hφ hadd p).trans ?_
  exact Finset.sum_congr rfl fun k _ => by rw [exp_apply, vShift_apply]

/-! ## On the host -/

/-- Each row less its maximum, as the host computes it. -/
def hShift (x : FVec Ideal ⟨2, ![a, b]⟩ .f32) (h' : (⟨2, ![a, b]⟩ : Shape).ReducesTo [1] (⟨1, ![a]⟩ : Shape))
    (hu : 0 < (⟨0, ![]⟩ : Shape).numel) (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1]) : FVec Ideal ⟨2, ![a, b]⟩ .f32 :=
  subf x (broadcastInDim ⟨2, ![a, b]⟩ ![0, 1] hb2 (broadcastInDim ⟨2, ![a, 1]⟩ ![0] hb1
    (maximumf (broadcastInDim ⟨1, ![a]⟩ ![] hb0 (constant (⟨0, ![]⟩ : Shape) .f32 0xFF800000#32))
      (Host.reduce FloatOps.maximumf x (constant (⟨0, ![]⟩ : Shape) .f32 0xFF800000#32) h' hu))))

/-- The shifted rows less the logarithm of the sum of their exponentials, as the host computes it. -/
def hLogSoftmax (x : FVec Ideal ⟨2, ![a, b]⟩ .f32) (h' : (⟨2, ![a, b]⟩ : Shape).ReducesTo [1] (⟨1, ![a]⟩ : Shape))
    (hu : 0 < (⟨0, ![]⟩ : Shape).numel) (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1]) : FVec Ideal ⟨2, ![a, b]⟩ .f32 :=
  subf (hShift x h' hu hb0 hb1 hb2) (broadcastInDim ⟨2, ![a, b]⟩ ![0, 1] hb2
    (Host.log (broadcastInDim ⟨2, ![a, 1]⟩ ![0] hb1
      (Host.reduceAdd (Host.exp (hShift x h' hu hb0 hb1 hb2)) (constant (⟨0, ![]⟩ : Shape) .f32 0x00000000#32) h' hu))))

theorem hShift_apply (x : FVec Ideal ⟨2, ![a, b]⟩ .f32) (h' : (⟨2, ![a, b]⟩ : Shape).ReducesTo [1] (⟨1, ![a]⟩ : Shape))
    (hu : 0 < (⟨0, ![]⟩ : Shape).numel) (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1]) (p : Fin a) (k : Fin b) :
    hShift x h' hu hb0 hb1 hb2 (ix2 p k) = x (ix2 p k) - rowMax (fun j => x (ix2 p j)) := by
  unfold hShift
  rw [subf_apply, broadcastInDim_a1_ab_apply, broadcastInDim_a_a1_apply, maximumf_apply, broadcastInDim_scalar_apply,
    constant_apply, reduce_maximumf_row, max_negInf]
  rfl

theorem hLogSoftmax_apply (x : FVec Ideal ⟨2, ![a, b]⟩ .f32) (h' : (⟨2, ![a, b]⟩ : Shape).ReducesTo [1] (⟨1, ![a]⟩ : Shape))
    (hu : 0 < (⟨0, ![]⟩ : Shape).numel) (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1]) (p : Fin a) (q : Fin b) :
    hLogSoftmax x h' hu hb0 hb1 hb2 (ix2 p q) = rowLogSoftmax (fun j => x (ix2 p j)) q := by
  unfold hLogSoftmax rowLogSoftmax
  rw [subf_apply, broadcastInDim_a1_ab_apply, hShift_apply, hostLog_apply, broadcastInDim_a_a1_apply, reduceAdd_row]
  refine congrArg (fun s => (x (ix2 p q) - rowMax fun j => x (ix2 p j)) - Ideal.log s) ?_
  exact Finset.sum_congr rfl fun k _ => by rw [hostExp_apply, hShift_apply]

/-- The two are one function of the rows: an entry of the vector unit's log-softmax of a block whose row `p` is row
    `P` of the host's matrix is the host's entry in row `P`. -/
theorem vLogSoftmax_eq_hLogSoftmax {a' : ℕ} (x : FVec Ideal ⟨2, ![a, b]⟩ .f32) (X : FVec Ideal ⟨2, ![a', b]⟩ .f32)
    (hr : (⟨2, ![a, b]⟩ : Shape).Reduces [1] (⟨1, ![a]⟩ : Shape))
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec FTy.f32.bits) = FKind.maximumf.neutral .f32 hφ)
    (hadd : (0x00000000#32 : BitVec FTy.f32.bits) = FKind.add.neutral .f32 hφ)
    (h' : (⟨2, ![a', b]⟩ : Shape).ReducesTo [1] (⟨1, ![a']⟩ : Shape))
    (hu : 0 < (⟨0, ![]⟩ : Shape).numel) (hb0 : (⟨0, ![]⟩ : Shape).BroadcastsInDim ⟨1, ![a']⟩ ![])
    (hb1 : (⟨1, ![a']⟩ : Shape).BroadcastsInDim ⟨2, ![a', 1]⟩ ![0])
    (hb2 : (⟨2, ![a', 1]⟩ : Shape).BroadcastsInDim ⟨2, ![a', b]⟩ ![0, 1])
    (p : Fin a) (P : Fin a') (q : Fin b) (hrow : ∀ k : Fin b, x (ix2 p k) = X (ix2 P k)) :
    vLogSoftmax x hr hc hb hφ hmax hadd (ix2 p q) = hLogSoftmax X h' hu hb0 hb1 hb2 (ix2 P q) := by
  rw [vLogSoftmax_apply, hLogSoftmax_apply]
  exact congrArg (fun r => rowLogSoftmax r q) (funext hrow)

end Cert.Lib.RowLogSoftmax

end
-- ==== Proof.Region2.lean ====
/-
  Region 2, the bias and the log-softmax of each row, as one whole-array function.

  Point `t` of the 25 takes rows `4000·t …` of the `100000×8` array `H` it finds at the first operand, adds the
  one-row array `B` (`1×8`) along every row and takes the log-softmax of each of its rows on the vector unit. A row's
  log-softmax depends on that row only, so entry `(p, q)` of the point's result is entry `(4000·t + p, q)` of the
  host's log-softmax of the rows of `H + B` (`B` broadcast down the rows). The 25 row blocks fill the result array.
-/
import proofs.«113998_j57312043598543_2_alg».proof.Proof.Gen.KernelIdeal.Frame
import proofs.«113998_j57312043598543_2_alg».proof.Proof.Gen.ReferenceIdeal
import proofs.«113998_j57312043598543_2_alg».proof.Proof.LibRowLogSoftmax
import Idealize.ShloMosaic.Lib.Pipeline.Value
import Idealize.ShloMosaic.Lib.ValueIdx
import Idealize.ShloMosaic.Lib.ValueLayout
import Idealize.ShloMosaic.Lib.KernelVsHost
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Lib.RowLogSoftmax

/-- The whole array with the bias row added down the rows, as the host adds it. -/
def biased (H : FVec Ideal S100000x8 .f32) (B : FVec Ideal S1x8 .f32) : FVec Ideal S100000x8 .f32 :=
  addf H (broadcastInDim S100000x8 ![0, 1] Cert.ReferenceIdeal.Facts₀.bcast_S1x8_S100000x8_0_1 B)

/-- The host's log-softmax of the rows of the biased array. -/
def whole (H : FVec Ideal S100000x8 .f32) (B : FVec Ideal S1x8 .f32) : FVec Ideal S100000x8 .f32 :=
  hLogSoftmax (biased H B) Cert.ReferenceIdeal.Facts₀.reducesTo_S100000x8_S100000_d1 Cert.ReferenceIdeal.Facts₀.h_S_ Cert.ReferenceIdeal.Facts₀.bcast_S_S100000
    Cert.ReferenceIdeal.Facts₀.bcast_S100000_S100000x1_0 Cert.ReferenceIdeal.Facts₀.bcast_S100000x1_S100000x8_0_1

/-- A point's block with the bias row added down its rows, as the vector unit adds it. -/
def blockBiased (x0 : Vec Ideal S4000x8 .f32) (x1 : Vec Ideal S1x8 .f32) : FVec Ideal S4000x8 .f32 :=
  addf (shapeCast S4000x8 x0 shapeCasts_S4000x8_S4000x8) (broadcastTo S4000x8 (shapeCast S1x8 x1 shapeCasts_S1x8_S1x8) broadcasts_S1x8_S4000x8)

theorem hz : (![0, 0] : Fin 2 → Nat) = fun _ => 0 := funext fun a => by fin_cases a <;> rfl

theorem biased_apply (H : FVec Ideal S100000x8 .f32) (B : FVec Ideal S1x8 .f32) (P : Fin 100000) (k : Fin 8) :
    biased H B (ix2 P k) = H (ix2 P k) + B (ix2 (0 : Fin 1) k) := by
  unfold biased
  rw [addf_apply, broadcastInDim_oneRow_apply]

theorem blockBiased_apply (x0 : Vec Ideal S4000x8 .f32) (x1 : Vec Ideal S1x8 .f32) (p : Fin 4000) (k : Fin 8) :
    blockBiased x0 x1 (ix2 p k) = x0 (ix2 p k) + x1 (ix2 (0 : Fin 1) k) := by
  unfold blockBiased
  rw [addf_apply, shapeCast_self, shapeCast_self, broadcastTo_1b_ab_apply]

/-- The body's stored value is the vector unit's log-softmax of the biased block. -/
theorem pay_eq (x0 : Vec Ideal S4000x8 .f32) (x1 : Vec Ideal S1x8 .f32) :
    k2_pay1 (F := Ideal) x0 x1
      = vLogSoftmax (blockBiased x0 x1) reduces_S4000x8_S4000 shapeCasts_S4000_S4000x1 broadcasts_S4000x1_S4000x8 (.inl rfl) rfl rfl := rfl

/-- One entry of a point's result is the entry of the whole log-softmax in the block's row of the array. -/
theorem entry (H : FVec Ideal S100000x8 .f32) (B : FVec Ideal S1x8 .f32)
    (x0 : Vec Ideal S4000x8 .f32) (x1 : Vec Ideal S1x8 .f32) (P : Fin 100000) (p : Fin 4000) (q : Fin 8)
    (hx : ∀ k : Fin 8, x0 (ix2 p k) = H (ix2 P k)) (hb : ∀ k : Fin 8, x1 (ix2 (0 : Fin 1) k) = B (ix2 (0 : Fin 1) k)) :
    k2_pay1 (F := Ideal) x0 x1 (ix2 p q) = whole H B (ix2 P q) := by
  rw [pay_eq]
  exact vLogSoftmax_eq_hLogSoftmax (blockBiased x0 x1) (biased H B) _ _ _ _ _ _ _ _ _ _ _ p P q
    (fun k => by rw [blockBiased_apply, biased_apply, hx k, hb k])

variable (V : (c : Dev nD) → (b : Ref sig .tc) → Buf (Elt Ideal) ((c : Thread nD τ).loc b))

/-- The printed index maps over the 25 points: the row-blocked windows move with the point, the bias stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole function of the arrays the region finds. -/
theorem flushed_eq (c : Dev nD) (t : Fin cfg2.N) :
    (dat2 V c).flushed 2 t = ((cfg2.win 2).blk t).view.read (Elt Ideal) (whole (V c main_v60) (V c main_v61)) := by
  show (cfg2.win 2).cut (grid2.coords t) ((dat2 V c).after 2 t) = _
  rw [after2_2]
  unfold out2_2
  rw [View.canon_unit_zero hz]
  simp only [View.ld_unit_zero (S := S4000x8) hz, View.ld_unit_zero (S := S1x8) hz]
  obtain ⟨e0, e1, e2, e3, e4, e5⟩ := idx_facts t
  have ht : t.val < 25 := by have h := t.isLt; have hN : cfg2.N = 25 := N_2; omega
  funext j
  obtain ⟨p, q, rfl⟩ : ∃ (p : Fin 4000) (q : Fin 8), j = ix2 p q := ⟨j 0, j 1, eq_ix2 j⟩
  have hP : 4000 * t.val + p.val < 100000 := by have := p.isLt; omega
  show k2_pay1 (F := Ideal) (iblk2 V c 0 t) (iblk2 V c 1 t) (ix2 p q)
    = whole (V c main_v60) (V c main_v61) (((cfg2.win 2).blk t).view.emb (ix2 p q))
  have hemb : ((cfg2.win 2).blk t).view.emb (ix2 p q) = ix2 (⟨4000 * t.val + p.val, hP⟩ : Fin 100000) q := by
    funext a; apply Fin.ext
    match a with
    | ⟨0, _⟩ => show win2_2.index t (0 : Fin 2) * 4000 + 1 * p.val = 4000 * t.val + p.val; omega
    | ⟨1, _⟩ => show win2_2.index t (1 : Fin 2) * 8 + 1 * q.val = q.val; omega
  rw [hemb]
  refine entry (V c main_v60) (V c main_v61) (iblk2 V c 0 t) (iblk2 V c 1 t) ⟨4000 * t.val + p.val, hP⟩ p q ?_ ?_
  · intro k
    show V c main_v60 (((cfg2.win 0).blk t).view.emb (ix2 p k)) = V c main_v60 (ix2 ⟨4000 * t.val + p.val, hP⟩ k)
    refine congrArg (V c main_v60) ?_
    funext a; apply Fin.ext
    match a with
    | ⟨0, _⟩ => show win2_0.index t (0 : Fin 2) * 4000 + 1 * p.val = 4000 * t.val + p.val; omega
    | ⟨1, _⟩ => show win2_0.index t (1 : Fin 2) * 8 + 1 * k.val = k.val; omega
  · intro k
    show V c main_v61 (((cfg2.win 1).blk t).view.emb (ix2 (0 : Fin 1) k)) = V c main_v61 (ix2 (0 : Fin 1) k)
    refine congrArg (V c main_v61) ?_
    funext a; apply Fin.ext
    match a with
    | ⟨0, _⟩ => show win2_1.index t (0 : Fin 2) * 1 + 1 * 0 = 0; omega
    | ⟨1, _⟩ => show win2_1.index t (1 : Fin 2) * 8 + 1 * k.val = k.val; omega

/-- An index of the result array is in point `t`'s block iff each coordinate is in the block's range on its axis. -/
theorem mem_blk (t : Fin cfg2.N) (i : S100000x8.Idx) :
    i ∈ ((cfg2.win 2).blk t).view.set ↔ ∀ a : Fin 2, win2_2.index t a * S4000x8.size a ≤ (i a).val ∧ (i a).val < win2_2.index t a * S4000x8.size a + S4000x8.size a := by
  show i ∈ ((View.whole main_v62).slice (win2_2.rect t)).set ↔ _
  rw [View.set_slice_whole, Rect.mem_set_unit]
  exact Iff.rfl

/-- Every block index in range is some point's. -/
theorem idx_onto : ∀ q0 : Fin 25, ∃ t : Fin cfg2.N, win2_2.index t = ![q0.val, 0] :=
  (by decide +kernel : ∀ q0 : Fin 25, ∃ t : Fin grid2.N, win2_2.index t = ![q0.val, 0])

/-- After the region the result array is the whole function of the two arrays the region finds. -/
theorem final (c : Dev nD) : (dat2 V c).arrAt 2 cfg2.N = whole (V c main_v60) (V c main_v61) :=
  (dat2 V c).arrAt_eq_of_cover 2 (whole (V c main_v60) (V c main_v61)) (fun t _ => flushed_eq V c t) fun i => by
    have hi0 : (i 0).val < 100000 := (i 0).isLt
    have hi1 : (i 1).val < 8 := (i 1).isLt
    obtain ⟨t, ht⟩ := idx_onto ⟨(i 0).val / 4000, by omega⟩
    have q0 : win2_2.index t (0 : Fin 2) = (i 0).val / 4000 := congrFun ht 0
    have q1 : win2_2.index t (1 : Fin 2) = 0 := congrFun ht 1
    refine ⟨t, flush2_2 t, ?_⟩
    rw [mem_blk]
    intro a
    match a with
    | ⟨0, _⟩ => show win2_2.index t (0 : Fin 2) * 4000 ≤ (i 0).val ∧ (i 0).val < win2_2.index t (0 : Fin 2) * 4000 + 4000; omega
    | ⟨1, _⟩ => show win2_2.index t (1 : Fin 2) * 8 ≤ (i 1).val ∧ (i 1).val < win2_2.index t (1 : Fin 2) * 8 + 8; omega

end Cert.KernelIdeal.Region2

end
-- ==== Proof.Glue.lean ====
/-
  The idealized kernel's result as one function of the arrays it is built from.

  Both layers aggregate over the edges in the same way: the rows of a node array `h` are gathered at the edges'
  source nodes (a negative index wrapped by the node count), each multiplied by its edge's normalisation weight, and
  added into the rows of a zero array at the edges' destination nodes (`agg16` for 16 channels, `agg8` for 8). Between
  and after the two aggregations stand the three dense stages, each the whole-array function its region computes
  (`Region0.whole`: the product with the first weights; `Region1.whole`: bias, maximum with zero and the product with
  the second weights; `Region2.whole`: bias and the log-softmax of each row). `result` composes them, as a function of
  the edges' source and destination indices, their weights, the features, and the two layers' weights and biases
  (each bias reshaped to one row, as the kernel passes it).
-/
import proofs.«113998_j57312043598543_2_alg».proof.Proof.Region0
import proofs.«113998_j57312043598543_2_alg».proof.Proof.Region1
import proofs.«113998_j57312043598543_2_alg».proof.Proof.Region2

set_option maxRecDepth 16384

noncomputable section

open Idealize.ShloMosaic Idealize.ShloMosaic.TcCoe Idealize.SL.Sem

namespace Cert.KernelIdeal.Glue

open Cert.KernelIdeal Cert.KernelIdeal.Gen

/-- An edge-index vector with its negative entries wrapped by the node count, as the column the gather takes. -/
def wrap (ix : IVec S3300000 32) : IVec S3300000x1 32 :=
  broadcastInDim S3300000x1 ![0] bcast_S3300000_S3300000x1_0
    (select (cmpi .slt ix (broadcastInDim S3300000 ![] bcast_S_S3300000 (constantI S_ 32 0#32)))
      (addi ix (broadcastInDim S3300000 ![] bcast_S_S3300000 (constantI S_ 32 100000#32))) ix)

/-- The weighted aggregation of a 16-channel node array over the edges. -/
def agg16 (dst src : IVec S3300000 32) (nrm : FVec Ideal S3300000 .f32)
    (h : FVec Ideal S100000x16 .f32) : FVec Ideal S100000x16 .f32 :=
  Host.scatterAdd (F := Ideal) scatter_S100000x16_S3300000x1_S3300000x16_1_0_0_1
    (broadcastInDim S100000x16 ![] bcast_S_S100000x16 (constant (F := Ideal) S_ .f32 0x00000000#32))
    (broadcastInDim S3300000x1 ![0] bcast_S3300000_S3300000x1_0 dst)
    (mulf (broadcastInDim S3300000x16 ![0, 1] bcast_S3300000x1_S3300000x16_0_1
        (broadcastInDim S3300000x1 ![0] bcast_S3300000_S3300000x1_0 nrm))
      (Host.gather gather_S100000x16_S3300000x1_S3300000x16_1_0_n_n_0_1_116 h (wrap src)))

/-- The weighted aggregation of an 8-channel node array over the edges. -/
def agg8 (dst src : IVec S3300000 32) (nrm : FVec Ideal S3300000 .f32)
    (h : FVec Ideal S100000x8 .f32) : FVec Ideal S100000x8 .f32 :=
  Host.scatterAdd (F := Ideal) scatter_S100000x8_S3300000x1_S3300000x8_1_0_0_1
    (broadcastInDim S100000x8 ![] bcast_S_S100000x8 (constant (F := Ideal) S_ .f32 0x00000000#32))
    (broadcastInDim S3300000x1 ![0] bcast_S3300000_S3300000x1_0 dst)
    (mulf (broadcastInDim S3300000x8 ![0, 1] bcast_S3300000x1_S3300000x8_0_1
        (broadcastInDim S3300000x1 ![0] bcast_S3300000_S3300000x1_0 nrm))
      (Host.gather gather_S100000x8_S3300000x1_S3300000x8_1_0_n_n_0_1_18 h (wrap src)))

/-- The two-layer result from the edge arrays and the float arguments. -/
def result (src dst : IVec S3300000 32) (nrm : FVec Ideal S3300000 .f32)
    (x : FVec Ideal S100000x512 .f32) (w1 : FVec Ideal S512x16 .f32)
    (b1 : FVec Ideal S1x16 .f32) (w2 : FVec Ideal S16x8 .f32)
    (b2 : FVec Ideal S1x8 .f32) : FVec Ideal S100000x8 .f32 :=
  Region2.whole (agg8 dst src nrm (Region1.whole (agg16 dst src nrm (Region0.whole x w1)) b1 w2)) b2

end Cert.KernelIdeal.Glue

end
-- ==== Proof.KernelRun.lean ====
/-
  The idealized kernel's run with the WHOLE final memory in its post.

  The program is three kernel regions among five stretches of host operations. Its run ends with every unscoped
  buffer holding the contents `Gen.W8 m ρ c`: the launch memory pushed through the first three stretches, region 0's
  write-backs, the fourth stretch, region 1's write-backs, the fifth stretch and region 2's write-backs. The frame
  claim keeps only the seven argument arrays of that memory; the value claim needs the result array as well, so the
  run is stated here once for every unscoped buffer, and both claims read it off.
-/
import proofs.«113998_j57312043598543_2_alg».proof.Proof.Gen.KernelIdeal.Frame

set_option maxRecDepth 16384

noncomputable section

namespace Cert.KernelIdeal.RunK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and every
    unscoped buffer of the final memory holds what the fold through the host stretches and the three regions leaves
    there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The final memory at an unscoped TensorCore buffer, read off `run_all`'s post. -/
theorem read_final {r : PUnit × MemSt nD τ sig (Elt F)}
    (h : ∀ c : Dev nD, ∀ b ∈ Pipeline.ucRefs τ sig, r.2.mem (((c : Thread nD τ)).1, b) = W8 m ρ c b)
    (c : Dev nD) (b : Ref sig .tc) (hb : ¬ (Proc.devRef .tc b : DevRef τ sig).isScoped) :
    r.2.mem ((c.tc : Thread nD τ).loc b) = W8 m ρ c (Proc.devRef .tc b) :=
  h c _ (mem_uc b hb)

end Cert.KernelIdeal.RunK

end
-- ==== Proof.KernelValue.lean ====
/-
  The idealized kernel's result array, read through the run's fold.

  The run's final memory is the launch memory pushed through three stretches of host operations (the edge arrays:
  sources, destinations and normalisation weights), region 0, a fourth stretch (the first aggregation and the first
  bias as one row), region 1, a fifth stretch (the second aggregation and the second bias as one row) and region 2.
  Reading the fold backwards from the result buffer — a region's result array by its whole-array function, a host
  stretch by its operations, a buffer nothing writes by what it held before — the result is `Glue.result` of the
  three edge arrays as the first three stretches leave them and of the five float arguments as launched.
-/
import proofs.«113998_j57312043598543_2_alg».proof.Proof.Glue
import proofs.«113998_j57312043598543_2_alg».proof.Proof.KernelRun
import Idealize.ShloMosaic.Lib.StableHlo.Run

set_option maxRecDepth 65536

noncomputable section

open Idealize.ShloMosaic Idealize.ShloMosaic.TcCoe Idealize.SL.Sem Idealize.ShloMosaic.StableHlo

namespace Cert.KernelIdeal.ValueK

open Cert.KernelIdeal Cert.KernelIdeal.Gen Cert.KernelIdeal.Glue

variable (m : (ℓ : Loc nD τ sig) → Buf (Elt Ideal) ℓ) (ρ : Dev nD → PrngReg)

/-! ## The first three stretches write no argument -/

theorem W3_arg0 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp <;> rfl
theorem W3_arg3 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp <;> rfl
theorem W3_arg4 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp <;> rfl
theorem W3_arg5 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp <;> rfl
theorem W3_arg6 (c : Dev nD) : W3 m ρ c (Proc.devRef .tc main_arg6) = m ((c.tc : Thread nD τ).loc main_arg6) := by
  show StableHlo.after hostOps0_2 (StableHlo.after hostOps0_1 (StableHlo.after hostOps0 (W0 m ρ c))) (Proc.devRef .tc main_arg6) = _
  after_results_simp <;> rfl

/-! ## Region 0 -/

/-- The first dense product. -/
theorem W4_v32 (c : Dev nD) : W4 m ρ c (Proc.devRef .tc main_v32)
    = Region0.whole (m ((c.tc : Thread nD τ).loc main_arg0)) (m ((c.tc : Thread nD τ).loc main_arg3)) := by
  have h := (W4_arr m ρ c 2).trans (Region0.final (V3 m ρ) c)
  rw [show V3 m ρ c main_arg0 = m ((c.tc : Thread nD τ).loc main_arg0) from W3_arg0 m ρ c,
    show V3 m ρ c main_arg3 = m ((c.tc : Thread nD τ).loc main_arg3) from W3_arg3 m ρ c] at h
  exact h

/-- Region 0 writes only its result array. -/
theorem W4_keep (c : Dev nD) (b : Ref sig .tc) (hb : ∀ w, Pipeline.arrRef spec0 w ≠ b) :
    W4 m ρ c (Proc.devRef .tc b) = W3 m ρ c (Proc.devRef .tc b) := W4_of_ne m ρ c b hb

/-! ## The fourth stretch: the first aggregation, the first bias as a row -/

theorem W5_v45 (c : Dev nD) : W5 m ρ c (Proc.devRef .tc main_v45)
    = agg16 (W3 m ρ c (Proc.devRef .tc main_v6)) (W3 m ρ c (Proc.devRef .tc main_v5)) (W3 m ρ c (Proc.devRef .tc main_v31))
        (Region0.whole (m ((c.tc : Thread nD τ).loc main_arg0)) (m ((c.tc : Thread nD τ).loc main_arg3))) := by
  rw [← W4_v32 m ρ c, ← W4_keep m ρ c main_v6 (by decide), ← W4_keep m ρ c main_v5 (by decide), ← W4_keep m ρ c main_v31 (by decide)]
  show StableHlo.after hostOps1 (W4 m ρ c) (Proc.devRef .tc main_v45) = _
  after_results_simp <;> rfl

theorem W5_v46 (c : Dev nD) : W5 m ρ c (Proc.devRef .tc main_v46)
    = shapeCast S1x16 (m ((c.tc : Thread nD τ).loc main_arg4)) shapeCasts_S16_S1x16 := by
  rw [← W3_arg4 m ρ c, ← W4_keep m ρ c main_arg4 (by decide)]
  show StableHlo.after hostOps1 (W4 m ρ c) (Proc.devRef .tc main_v46) = _
  after_results_simp <;> rfl

/-! The fourth stretch writes none of the edge arrays and no argument. -/

theorem W5_v5 (c : Dev nD) : W5 m ρ c (Proc.devRef .tc main_v5) = W3 m ρ c (Proc.devRef .tc main_v5) := by
  rw [← W4_keep m ρ c main_v5 (by decide)]
  show StableHlo.after hostOps1 (W4 m ρ c) (Proc.devRef .tc main_v5) = _
  after_results_simp
theorem W5_v6 (c : Dev nD) : W5 m ρ c (Proc.devRef .tc main_v6) = W3 m ρ c (Proc.devRef .tc main_v6) := by
  rw [← W4_keep m ρ c main_v6 (by decide)]
  show StableHlo.after hostOps1 (W4 m ρ c) (Proc.devRef .tc main_v6) = _
  after_results_simp
theorem W5_v31 (c : Dev nD) : W5 m ρ c (Proc.devRef .tc main_v31) = W3 m ρ c (Proc.devRef .tc main_v31) := by
  rw [← W4_keep m ρ c main_v31 (by decide)]
  show StableHlo.after hostOps1 (W4 m ρ c) (Proc.devRef .tc main_v31) = _
  after_results_simp
theorem W5_arg5 (c : Dev nD) : W5 m ρ c (Proc.devRef .tc main_arg5) = W3 m ρ c (Proc.devRef .tc main_arg5) := by
  rw [← W4_keep m ρ c main_arg5 (by decide)]
  show StableHlo.after hostOps1 (W4 m ρ c) (Proc.devRef .tc main_arg5) = _
  after_results_simp
theorem W5_arg6 (c : Dev nD) : W5 m ρ c (Proc.devRef .tc main_arg6) = W3 m ρ c (Proc.devRef .tc main_arg6) := by
  rw [← W4_keep m ρ c main_arg6 (by decide)]
  show StableHlo.after hostOps1 (W4 m ρ c) (Proc.devRef .tc main_arg6) = _
  after_results_simp

/-! ## Region 1 -/

/-- Bias, maximum with zero and the second dense product, of the first aggregation. -/
theorem W6_v47 (c : Dev nD) : W6 m ρ c (Proc.devRef .tc main_v47)
    = Region1.whole (agg16 (W3 m ρ c (Proc.devRef .tc main_v6)) (W3 m ρ c (Proc.devRef .tc main_v5)) (W3 m ρ c (Proc.devRef .tc main_v31)) (Region0.whole (m ((c.tc : Thread nD τ).loc main_arg0)) (m ((c.tc : Thread nD τ).loc main_arg3))))
        (shapeCast S1x16 (m ((c.tc : Thread nD τ).loc main_arg4)) shapeCasts_S16_S1x16) (m ((c.tc : Thread nD τ).loc main_arg5)) := by
  have h := (W6_arr m ρ c 3).trans (Region1.final (V5 m ρ) c)
  rw [show V5 m ρ c main_v45 = _ from W5_v45 m ρ c, show V5 m ρ c main_v46 = _ from W5_v46 m ρ c,
    show V5 m ρ c main_arg5 = _ from (W5_arg5 m ρ c).trans (W3_arg5 m ρ c)] at h
  exact h

/-- Region 1 writes only its result array. -/
theorem W6_keep (c : Dev nD) (b : Ref sig .tc) (hb : ∀ w, Pipeline.arrRef spec1 w ≠ b) :
    W6 m ρ c (Proc.devRef .tc b) = W5 m ρ c (Proc.devRef .tc b) := W6_of_ne m ρ c b hb

/-! ## The fifth stretch: the second aggregation, the second bias as a row -/

theorem W7_v60 (c : Dev nD) : W7 m ρ c (Proc.devRef .tc main_v60)
    = agg8 (W3 m ρ c (Proc.devRef .tc main_v6)) (W3 m ρ c (Proc.devRef .tc main_v5)) (W3 m ρ c (Proc.devRef .tc main_v31))
        (Region1.whole (agg16 (W3 m ρ c (Proc.devRef .tc main_v6)) (W3 m ρ c (Proc.devRef .tc main_v5)) (W3 m ρ c (Proc.devRef .tc main_v31)) (Region0.whole (m ((c.tc : Thread nD τ).loc main_arg0)) (m ((c.tc : Thread nD τ).loc main_arg3)))) (shapeCast S1x16 (m ((c.tc : Thread nD τ).loc main_arg4)) shapeCasts_S16_S1x16) (m ((c.tc : Thread nD τ).loc main_arg5))) := by
  have h : W7 m ρ c (Proc.devRef .tc main_v60)
      = agg8 (W6 m ρ c (Proc.devRef .tc main_v6)) (W6 m ρ c (Proc.devRef .tc main_v5)) (W6 m ρ c (Proc.devRef .tc main_v31))
          (W6 m ρ c (Proc.devRef .tc main_v47)) := by
    show StableHlo.after hostOps2 (W6 m ρ c) (Proc.devRef .tc main_v60) = _
    after_results_simp <;> rfl
  rw [h, W6_keep m ρ c main_v6 (by decide), W6_keep m ρ c main_v5 (by decide), W6_keep m ρ c main_v31 (by decide),
    W5_v6, W5_v5, W5_v31, W6_v47]

theorem W7_v61 (c : Dev nD) : W7 m ρ c (Proc.devRef .tc main_v61) = shapeCast S1x8 (m ((c.tc : Thread nD τ).loc main_arg6)) shapeCasts_S8_S1x8 := by
  have h : W7 m ρ c (Proc.devRef .tc main_v61) = shapeCast S1x8 (W6 m ρ c (Proc.devRef .tc main_arg6)) shapeCasts_S8_S1x8 := by
    show StableHlo.after hostOps2 (W6 m ρ c) (Proc.devRef .tc main_v61) = _
    after_results_simp <;> rfl
  rw [h, W6_keep m ρ c main_arg6 (by decide), W5_arg6, W3_arg6]

/-! ## Region 2 -/

/-- THE RESULT ARRAY after the run: the two-layer function of the edge arrays the first three stretches leave and of
    the float arguments as launched. -/
theorem W8_v62 (c : Dev nD) : W8 m ρ c (Proc.devRef .tc main_v62)
    = result (W3 m ρ c (Proc.devRef .tc main_v5)) (W3 m ρ c (Proc.devRef .tc main_v6)) (W3 m ρ c (Proc.devRef .tc main_v31))
        (m ((c.tc : Thread nD τ).loc main_arg0)) (m ((c.tc : Thread nD τ).loc main_arg3)) (shapeCast S1x16 (m ((c.tc : Thread nD τ).loc main_arg4)) shapeCasts_S16_S1x16)
        (m ((c.tc : Thread nD τ).loc main_arg5)) (shapeCast S1x8 (m ((c.tc : Thread nD τ).loc main_arg6)) shapeCasts_S8_S1x8) := by
  have h := (W8_arr m ρ c 2).trans (Region2.final (V7 m ρ) c)
  rw [show V7 m ρ c main_v60 = _ from W7_v60 m ρ c, show V7 m ρ c main_v61 = _ from W7_v61 m ρ c] at h
  exact h

end Cert.KernelIdeal.ValueK

end
-- ==== Proof.RefRun.lean ====
/-
  The idealized reference's run, read in two stages.

  The reference's @main is a straight line of 100 host operations. Its first 42 compute the edge arrays (sources and
  destinations with the self-loops appended, and each edge's normalisation weight) — the same 42 operations, word for
  word, as the kernel's first three stretches. The remaining 58 are the two layers: product, aggregation, bias and
  maximum with zero; product, aggregation, bias and log-softmax. The run is stated with the result buffer at those 58
  operations' fold over the contents the first 42 leave (`afterPrefix`), and the seven arguments unchanged.
-/
import proofs.«113998_j57312043598543_2_alg».proof.Proof.RefOps
import Idealize.ShloMosaic.Lib.StableHlo.Run

noncomputable section

namespace Cert.ReferenceIdeal.RefRun

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

/-- Two lines of operations run one after the other are their concatenation run as one. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The buffers' contents after the 42 operations that compute the edge arrays. -/
def afterPrefix (m : (ℓ : Loc nD τ sig) → Buf (Elt F) ℓ) (c : Dev nD) : Valuation τ sig (Elt F) :=
  after ((ops (F := F)).take 42) (launchContents m c)

/-- The whole line's fold is the last 58 operations' fold over what the first 42 leave. -/
theorem after_ops (m : (ℓ : Loc nD τ sig) → Buf (Elt F) ℓ) (c : Dev nD) :
    after (ops (F := F)) (launchContents m c) = after ((ops (F := F)).drop 42) (afterPrefix m c) := by
  unfold afterPrefix
  rw [← after_append, List.take_append_drop]

set_option maxRecDepth 8192 in
set_option maxHeartbeats 40000000 in
/-- From any memory with zero counters every weakly fair execution of @main terminates with the result buffer at the
    last 58 operations' fold over the first 42's, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = after ((ops (F := F)).drop 42) (afterPrefix m c) (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v67).trans (congrFun (after_ops m c) _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.RefRun

end
-- ==== Proof.Folds.lean ====
/-
  The reference's two layers as named functions, and each of them the kernel's.

  The idealized reference and the idealized kernel are printed as two programs, so each has its own copy of every
  dimension record and side condition. The reference's last 58 operations are written here once, as a composition of
  seven named functions over the reference's own records (`rResult`): the first product, an index vector wrapped and
  laid as a column, the two aggregations, the second layer's bias / maximum with zero / product, the second bias, the
  log-softmax of the rows. Each named function IS the kernel's function of the same arrays — the records are equal
  field by field, the side conditions are propositions — so the composite is the kernel's `Glue.result`; the one
  remaining difference is a bias as a one-row array, reshaped by the kernel and broadcast along axis 1 by the
  reference, which is the same array.
-/
import proofs.«113998_j57312043598543_2_alg».proof.Proof.Glue
import proofs.«113998_j57312043598543_2_alg».proof.Proof.Gen.ReferenceIdeal

noncomputable section

open Idealize.ShloMosaic Idealize.ShloMosaic.TcCoe Idealize.SL.Sem

namespace Cert.Bridge

/-! ## The reference's pieces -/

def rDot1 (x : FVec Ideal Cert.KernelIdeal.S100000x512 .f32) (w1 : FVec Ideal Cert.KernelIdeal.S512x16 .f32) : FVec Ideal Cert.KernelIdeal.S100000x16 .f32 :=
  Host.dotGeneral Cert.ReferenceIdeal.dot_S100000x512_S512x16_S100000x16_1_0_0_1_n_n none x w1

def rWrap (ix : IVec Cert.KernelIdeal.S3300000 32) : IVec Cert.KernelIdeal.S3300000x1 32 :=
  broadcastInDim Cert.ReferenceIdeal.S3300000x1 ![0] Cert.ReferenceIdeal.Gen.bcast_S3300000_S3300000x1_0
    (select (cmpi .slt ix (broadcastInDim Cert.ReferenceIdeal.S3300000 ![] Cert.ReferenceIdeal.Gen.bcast_S_S3300000 (constantI Cert.ReferenceIdeal.S_ 32 0#32)))
      (addi ix (broadcastInDim Cert.ReferenceIdeal.S3300000 ![] Cert.ReferenceIdeal.Gen.bcast_S_S3300000 (constantI Cert.ReferenceIdeal.S_ 32 100000#32))) ix)

def rAgg16 (dst src : IVec Cert.KernelIdeal.S3300000 32) (nrm : FVec Ideal Cert.KernelIdeal.S3300000 .f32) (h : FVec Ideal Cert.KernelIdeal.S100000x16 .f32) : FVec Ideal Cert.KernelIdeal.S100000x16 .f32 :=
  Host.scatterAdd (F := Ideal) Cert.ReferenceIdeal.scatter_S100000x16_S3300000x1_S3300000x16_1_0_0_1
    (broadcastInDim Cert.ReferenceIdeal.S100000x16 ![] Cert.ReferenceIdeal.Gen.bcast_S_S100000x16 (constant (F := Ideal) Cert.ReferenceIdeal.S_ .f32 0x00000000#32))
    (broadcastInDim Cert.ReferenceIdeal.S3300000x1 ![0] Cert.ReferenceIdeal.Gen.bcast_S3300000_S3300000x1_0 dst)
    (mulf (broadcastInDim Cert.ReferenceIdeal.S3300000x16 ![0, 1] Cert.ReferenceIdeal.Gen.bcast_S3300000x1_S3300000x16_0_1
        (broadcastInDim Cert.ReferenceIdeal.S3300000x1 ![0] Cert.ReferenceIdeal.Gen.bcast_S3300000_S3300000x1_0 nrm))
      (Host.gather Cert.ReferenceIdeal.gather_S100000x16_S3300000x1_S3300000x16_1_0_n_n_0_1_116 h (rWrap src)))

def rAgg8 (dst src : IVec Cert.KernelIdeal.S3300000 32) (nrm : FVec Ideal Cert.KernelIdeal.S3300000 .f32) (h : FVec Ideal Cert.KernelIdeal.S100000x8 .f32) : FVec Ideal Cert.KernelIdeal.S100000x8 .f32 :=
  Host.scatterAdd (F := Ideal) Cert.ReferenceIdeal.scatter_S100000x8_S3300000x1_S3300000x8_1_0_0_1
    (broadcastInDim Cert.ReferenceIdeal.S100000x8 ![] Cert.ReferenceIdeal.Gen.bcast_S_S100000x8 (constant (F := Ideal) Cert.ReferenceIdeal.S_ .f32 0x00000000#32))
    (broadcastInDim Cert.ReferenceIdeal.S3300000x1 ![0] Cert.ReferenceIdeal.Gen.bcast_S3300000_S3300000x1_0 dst)
    (mulf (broadcastInDim Cert.ReferenceIdeal.S3300000x8 ![0, 1] Cert.ReferenceIdeal.Gen.bcast_S3300000x1_S3300000x8_0_1
        (broadcastInDim Cert.ReferenceIdeal.S3300000x1 ![0] Cert.ReferenceIdeal.Gen.bcast_S3300000_S3300000x1_0 nrm))
      (Host.gather Cert.ReferenceIdeal.gather_S100000x8_S3300000x1_S3300000x8_1_0_n_n_0_1_18 h (rWrap src)))

def rLayer2 (h : FVec Ideal Cert.KernelIdeal.S100000x16 .f32) (B : FVec Ideal Cert.KernelIdeal.S1x16 .f32) (w2 : FVec Ideal Cert.KernelIdeal.S16x8 .f32) : FVec Ideal Cert.KernelIdeal.S100000x8 .f32 :=
  Host.dotGeneral Cert.ReferenceIdeal.dot_S100000x16_S16x8_S100000x8_1_0_0_1_n_n none
    (maximumf (addf h (broadcastInDim Cert.ReferenceIdeal.S100000x16 ![0, 1] Cert.ReferenceIdeal.Gen.bcast_S1x16_S100000x16_0_1 B))
      (broadcastInDim Cert.ReferenceIdeal.S100000x16 ![] Cert.ReferenceIdeal.Gen.bcast_S_S100000x16 (constant (F := Ideal) Cert.ReferenceIdeal.S_ .f32 0x00000000#32))) w2

def rBiased (h : FVec Ideal Cert.KernelIdeal.S100000x8 .f32) (B : FVec Ideal Cert.KernelIdeal.S1x8 .f32) : FVec Ideal Cert.KernelIdeal.S100000x8 .f32 :=
  addf h (broadcastInDim Cert.ReferenceIdeal.S100000x8 ![0, 1] Cert.ReferenceIdeal.Gen.bcast_S1x8_S100000x8_0_1 B)

/-- Each row's maximum, as the reference takes it. -/
def rRowMax (g : FVec Ideal Cert.KernelIdeal.S100000x8 .f32) : FVec Ideal Cert.ReferenceIdeal.S100000 .f32 :=
  maximumf (broadcastInDim Cert.ReferenceIdeal.S100000 ![] Cert.ReferenceIdeal.Gen.bcast_S_S100000 (constant (F := Ideal) Cert.ReferenceIdeal.S_ .f32 0xFF800000#32))
    (Host.reduce FloatOps.maximumf g (constant (F := Ideal) Cert.ReferenceIdeal.S_ .f32 0xFF800000#32)
      Cert.ReferenceIdeal.Gen.reducesTo_S100000x8_S100000_d1 Cert.ReferenceIdeal.Gen.h_S_)

def rShift (g : FVec Ideal Cert.KernelIdeal.S100000x8 .f32) : FVec Ideal Cert.KernelIdeal.S100000x8 .f32 :=
  subf g (broadcastInDim Cert.ReferenceIdeal.S100000x8 ![0, 1] Cert.ReferenceIdeal.Gen.bcast_S100000x1_S100000x8_0_1
    (broadcastInDim Cert.ReferenceIdeal.S100000x1 ![0] Cert.ReferenceIdeal.Gen.bcast_S100000_S100000x1_0 (rRowMax g)))

def rLogSoftmax (g : FVec Ideal Cert.KernelIdeal.S100000x8 .f32) : FVec Ideal Cert.KernelIdeal.S100000x8 .f32 :=
  subf (rShift g) (broadcastInDim Cert.ReferenceIdeal.S100000x8 ![0, 1] Cert.ReferenceIdeal.Gen.bcast_S100000x1_S100000x8_0_1
    (Host.log (broadcastInDim Cert.ReferenceIdeal.S100000x1 ![0] Cert.ReferenceIdeal.Gen.bcast_S100000_S100000x1_0
      (Host.reduceAdd (Host.exp (rShift g)) (constant (F := Ideal) Cert.ReferenceIdeal.S_ .f32 0x00000000#32)
        Cert.ReferenceIdeal.Gen.reducesTo_S100000x8_S100000_d1 Cert.ReferenceIdeal.Gen.h_S_))))

/-- The reference's last 58 operations, composed. -/
def rResult (src dst : IVec Cert.KernelIdeal.S3300000 32) (nrm : FVec Ideal Cert.KernelIdeal.S3300000 .f32) (x : FVec Ideal Cert.KernelIdeal.S100000x512 .f32) (w1 : FVec Ideal Cert.KernelIdeal.S512x16 .f32)
    (b1 : FVec Ideal Cert.KernelIdeal.S16 .f32) (w2 : FVec Ideal Cert.KernelIdeal.S16x8 .f32) (b2 : FVec Ideal Cert.KernelIdeal.S8 .f32) : FVec Ideal Cert.KernelIdeal.S100000x8 .f32 :=
  rLogSoftmax (rBiased (rAgg8 dst src nrm
      (rLayer2 (rAgg16 dst src nrm (rDot1 x w1)) (broadcastInDim Cert.ReferenceIdeal.S1x16 ![1] Cert.ReferenceIdeal.Gen.bcast_S16_S1x16_1 b1) w2))
    (broadcastInDim Cert.ReferenceIdeal.S1x8 ![1] Cert.ReferenceIdeal.Gen.bcast_S8_S1x8_1 b2))

/-! ## Each piece is the kernel's function -/

theorem rDot1_eq : rDot1 = Cert.KernelIdeal.Region0.whole := rfl
theorem rWrap_eq : rWrap = Cert.KernelIdeal.Glue.wrap := rfl
theorem rAgg16_eq : rAgg16 = Cert.KernelIdeal.Glue.agg16 := by
  funext dst src nrm h; unfold rAgg16; rw [rWrap_eq]; rfl
theorem rAgg8_eq : rAgg8 = Cert.KernelIdeal.Glue.agg8 := by
  funext dst src nrm h; unfold rAgg8; rw [rWrap_eq]; rfl
theorem rLayer2_eq : rLayer2 = Cert.KernelIdeal.Region1.whole := rfl
theorem rBiased_eq : rBiased = Cert.KernelIdeal.Region2.biased := rfl
theorem rLogSoftmax_eq (g : FVec Ideal Cert.KernelIdeal.S100000x8 .f32) :
    rLogSoftmax g = Cert.Lib.RowLogSoftmax.hLogSoftmax g Cert.ReferenceIdeal.Gen.reducesTo_S100000x8_S100000_d1 Cert.ReferenceIdeal.Gen.h_S_ Cert.ReferenceIdeal.Gen.bcast_S_S100000
      Cert.ReferenceIdeal.Gen.bcast_S100000_S100000x1_0 Cert.ReferenceIdeal.Gen.bcast_S100000x1_S100000x8_0_1 := rfl

/-- The reference's two layers are the kernel's two-layer function. -/
theorem rResult_eq (src dst : IVec Cert.KernelIdeal.S3300000 32) (nrm : FVec Ideal Cert.KernelIdeal.S3300000 .f32) (x : FVec Ideal Cert.KernelIdeal.S100000x512 .f32) (w1 : FVec Ideal Cert.KernelIdeal.S512x16 .f32)
    (b1 : FVec Ideal Cert.KernelIdeal.S16 .f32) (w2 : FVec Ideal Cert.KernelIdeal.S16x8 .f32) (b2 : FVec Ideal Cert.KernelIdeal.S8 .f32) :
    rResult src dst nrm x w1 b1 w2 b2
      = Cert.KernelIdeal.Glue.result src dst nrm x w1 (shapeCast Cert.KernelIdeal.S1x16 b1 Cert.KernelIdeal.Facts₀.shapeCasts_S16_S1x16) w2
          (shapeCast Cert.KernelIdeal.S1x8 b2 Cert.KernelIdeal.Facts₀.shapeCasts_S8_S1x8) := by
  unfold rResult Cert.KernelIdeal.Glue.result Cert.KernelIdeal.Region2.whole
  rw [rLogSoftmax_eq, rDot1_eq, rAgg16_eq, rAgg8_eq, rLayer2_eq, rBiased_eq,
    Cert.Lib.HostKeepdims.shapeCast_row_eq_broadcastInDim b1 Cert.KernelIdeal.Facts₀.shapeCasts_S16_S1x16 Cert.ReferenceIdeal.Gen.bcast_S16_S1x16_1,
    Cert.Lib.HostKeepdims.shapeCast_row_eq_broadcastInDim b2 Cert.KernelIdeal.Facts₀.shapeCasts_S8_S1x8 Cert.ReferenceIdeal.Gen.bcast_S8_S1x8_1]

end Cert.Bridge

end
-- ==== Proof.Bridge.lean ====
/-
  The two programs compute one function.

  * `tail_eq`: the reference's last 58 operations, run on any contents, leave in the result buffer the kernel's
    two-layer function `Glue.result` of what those contents hold at the edge arrays and the float arguments. The 58
    operations are read in five stretches — the first product and aggregation; bias, maximum with zero and the second
    product; the second aggregation; the second bias; the log-softmax — each stretch's result one of the reference's
    named functions (Folds.lean) of what the stretch before left, and the buffers a stretch does not write kept.
  * `prefix_eq`: the reference's first 42 operations and the kernel's first three stretches are the same operations
    of the edge-index and edge-weight arguments, so they leave the same source, destination and weight arrays when
    those two arguments agree.
-/
import proofs.«113998_j57312043598543_2_alg».proof.Proof.KernelValue
import proofs.«113998_j57312043598543_2_alg».proof.Proof.RefRun
import proofs.«113998_j57312043598543_2_alg».proof.Proof.Folds

set_option maxRecDepth 65536

noncomputable section

open Idealize.ShloMosaic Idealize.ShloMosaic.TcCoe Idealize.SL.Sem Idealize.ShloMosaic.StableHlo

namespace Cert.Bridge

open Cert.ReferenceIdeal.RefRun (after_append)

/-- The reference's operations, at the ideal instance. -/
abbrev rops : List (HloOp Cert.ReferenceIdeal.τ Cert.ReferenceIdeal.sig (Elt Ideal)) := Cert.ReferenceIdeal.RunP.ops (F := Ideal)

/-- Operations 43–59: the first product and its aggregation over the edges. -/
def segA : List (HloOp Cert.ReferenceIdeal.τ Cert.ReferenceIdeal.sig (Elt Ideal)) := (rops.drop 42).take 17
/-- Operations 60–66: the first bias, the maximum with zero, the second product. -/
def segB : List (HloOp Cert.ReferenceIdeal.τ Cert.ReferenceIdeal.sig (Elt Ideal)) := (rops.drop 59).take 7
/-- Operations 67–82: the second aggregation. -/
def segC : List (HloOp Cert.ReferenceIdeal.τ Cert.ReferenceIdeal.sig (Elt Ideal)) := (rops.drop 66).take 16
/-- Operations 83–85: the second bias. -/
def segD : List (HloOp Cert.ReferenceIdeal.τ Cert.ReferenceIdeal.sig (Elt Ideal)) := (rops.drop 82).take 3
/-- Operations 86–100: the log-softmax of the rows. -/
def segE : List (HloOp Cert.ReferenceIdeal.τ Cert.ReferenceIdeal.sig (Elt Ideal)) := rops.drop 85

theorem tail_split : rops.drop 42 = segA ++ (segB ++ (segC ++ (segD ++ segE))) := by
  simp only [segA, segB, segC, segD, segE, rops, Cert.ReferenceIdeal.RunP.ops, List.drop_succ_cons, List.drop_zero, List.take_succ_cons,
    List.take_zero, List.cons_append, List.nil_append]

/-! ## What each stretch computes -/

set_option maxHeartbeats 2000000 in
theorem segA_v45 (W : Valuation Cert.ReferenceIdeal.τ Cert.ReferenceIdeal.sig (Elt Ideal)) :
    after segA W (Proc.devRef .tc Cert.ReferenceIdeal.main_v45)
      = rAgg16 (W (Proc.devRef .tc Cert.ReferenceIdeal.main_v6)) (W (Proc.devRef .tc Cert.ReferenceIdeal.main_v5)) (W (Proc.devRef .tc Cert.ReferenceIdeal.main_v31)) (rDot1 (W (Proc.devRef .tc Cert.ReferenceIdeal.main_arg0)) (W (Proc.devRef .tc Cert.ReferenceIdeal.main_arg3))) := by
  simp only [segA, rops, Cert.ReferenceIdeal.RunP.ops, List.drop_succ_cons, List.drop_zero, List.take_succ_cons, List.take_zero]
  after_results_simp <;> rfl

set_option maxHeartbeats 2000000 in
theorem segB_v50 (W : Valuation Cert.ReferenceIdeal.τ Cert.ReferenceIdeal.sig (Elt Ideal)) :
    after segB W (Proc.devRef .tc Cert.ReferenceIdeal.main_v50)
      = rLayer2 (W (Proc.devRef .tc Cert.ReferenceIdeal.main_v45)) (broadcastInDim Cert.ReferenceIdeal.S1x16 ![1] Cert.ReferenceIdeal.Gen.bcast_S16_S1x16_1 (W (Proc.devRef .tc Cert.ReferenceIdeal.main_arg4))) (W (Proc.devRef .tc Cert.ReferenceIdeal.main_arg5)) := by
  simp only [segB, rops, Cert.ReferenceIdeal.RunP.ops, List.drop_succ_cons, List.drop_zero, List.take_succ_cons, List.take_zero]
  after_results_simp <;> rfl

set_option maxHeartbeats 2000000 in
theorem segC_v63 (W : Valuation Cert.ReferenceIdeal.τ Cert.ReferenceIdeal.sig (Elt Ideal)) :
    after segC W (Proc.devRef .tc Cert.ReferenceIdeal.main_v63)
      = rAgg8 (W (Proc.devRef .tc Cert.ReferenceIdeal.main_v6)) (W (Proc.devRef .tc Cert.ReferenceIdeal.main_v5)) (W (Proc.devRef .tc Cert.ReferenceIdeal.main_v31)) (W (Proc.devRef .tc Cert.ReferenceIdeal.main_v50)) := by
  simp only [segC, rops, Cert.ReferenceIdeal.RunP.ops, List.drop_succ_cons, List.drop_zero, List.take_succ_cons, List.take_zero]
  after_results_simp <;> rfl

set_option maxHeartbeats 2000000 in
theorem segD_v66 (W : Valuation Cert.ReferenceIdeal.τ Cert.ReferenceIdeal.sig (Elt Ideal)) :
    after segD W (Proc.devRef .tc Cert.ReferenceIdeal.main_v66)
      = rBiased (W (Proc.devRef .tc Cert.ReferenceIdeal.main_v63)) (broadcastInDim Cert.ReferenceIdeal.S1x8 ![1] Cert.ReferenceIdeal.Gen.bcast_S8_S1x8_1 (W (Proc.devRef .tc Cert.ReferenceIdeal.main_arg6))) := by
  simp only [segD, rops, Cert.ReferenceIdeal.RunP.ops, List.drop_succ_cons, List.drop_zero, List.take_succ_cons, List.take_zero]
  after_results_simp <;> rfl

/-! ### The log-softmax, in five short stretches

Each stretch's result is stated on plain arrays: a value passes through a typed reference's buffer unchanged, the
buffer's type being the value's (one lemma per buffer and direction, each by evaluating that buffer's type once). -/

theorem toBuf_main_call2_cst (h : Cert.ReferenceIdeal.main_call2_cst.ty = ⟨Cert.ReferenceIdeal.S_, .f32⟩) (hd : Cert.ReferenceIdeal.main_call2_cst.space ≠ .host) (hu : Cert.ReferenceIdeal.main_call2_cst.isScoped = false)
    (v : (⟨Cert.ReferenceIdeal.S_, .f32⟩ : BufTy).Contents (Elt Ideal)) : (StableHlo.TRef.of Cert.ReferenceIdeal.main_call2_cst h hd hu).toBuf v = v := rfl
theorem ofBuf_main_call2_cst (h : Cert.ReferenceIdeal.main_call2_cst.ty = ⟨Cert.ReferenceIdeal.S_, .f32⟩) (hd : Cert.ReferenceIdeal.main_call2_cst.space ≠ .host) (hu : Cert.ReferenceIdeal.main_call2_cst.isScoped = false)
    (v : (⟨Cert.ReferenceIdeal.S_, .f32⟩ : BufTy).Contents (Elt Ideal)) : (StableHlo.TRef.of Cert.ReferenceIdeal.main_call2_cst h hd hu).ofBuf v = v := rfl
theorem toBuf_main_v66 (h : Cert.ReferenceIdeal.main_v66.ty = ⟨Cert.ReferenceIdeal.S100000x8, .f32⟩) (hd : Cert.ReferenceIdeal.main_v66.space ≠ .host) (hu : Cert.ReferenceIdeal.main_v66.isScoped = false)
    (v : (⟨Cert.ReferenceIdeal.S100000x8, .f32⟩ : BufTy).Contents (Elt Ideal)) : (StableHlo.TRef.of Cert.ReferenceIdeal.main_v66 h hd hu).toBuf v = v := rfl
theorem ofBuf_main_v66 (h : Cert.ReferenceIdeal.main_v66.ty = ⟨Cert.ReferenceIdeal.S100000x8, .f32⟩) (hd : Cert.ReferenceIdeal.main_v66.space ≠ .host) (hu : Cert.ReferenceIdeal.main_v66.isScoped = false)
    (v : (⟨Cert.ReferenceIdeal.S100000x8, .f32⟩ : BufTy).Contents (Elt Ideal)) : (StableHlo.TRef.of Cert.ReferenceIdeal.main_v66 h hd hu).ofBuf v = v := rfl
theorem toBuf_main_call2_v0 (h : Cert.ReferenceIdeal.main_call2_v0.ty = ⟨Cert.ReferenceIdeal.S100000, .f32⟩) (hd : Cert.ReferenceIdeal.main_call2_v0.space ≠ .host) (hu : Cert.ReferenceIdeal.main_call2_v0.isScoped = false)
    (v : (⟨Cert.ReferenceIdeal.S100000, .f32⟩ : BufTy).Contents (Elt Ideal)) : (StableHlo.TRef.of Cert.ReferenceIdeal.main_call2_v0 h hd hu).toBuf v = v := rfl
theorem ofBuf_main_call2_v0 (h : Cert.ReferenceIdeal.main_call2_v0.ty = ⟨Cert.ReferenceIdeal.S100000, .f32⟩) (hd : Cert.ReferenceIdeal.main_call2_v0.space ≠ .host) (hu : Cert.ReferenceIdeal.main_call2_v0.isScoped = false)
    (v : (⟨Cert.ReferenceIdeal.S100000, .f32⟩ : BufTy).Contents (Elt Ideal)) : (StableHlo.TRef.of Cert.ReferenceIdeal.main_call2_v0 h hd hu).ofBuf v = v := rfl
theorem toBuf_main_call2_cst_0 (h : Cert.ReferenceIdeal.main_call2_cst_0.ty = ⟨Cert.ReferenceIdeal.S_, .f32⟩) (hd : Cert.ReferenceIdeal.main_call2_cst_0.space ≠ .host) (hu : Cert.ReferenceIdeal.main_call2_cst_0.isScoped = false)
    (v : (⟨Cert.ReferenceIdeal.S_, .f32⟩ : BufTy).Contents (Elt Ideal)) : (StableHlo.TRef.of Cert.ReferenceIdeal.main_call2_cst_0 h hd hu).toBuf v = v := rfl
theorem ofBuf_main_call2_cst_0 (h : Cert.ReferenceIdeal.main_call2_cst_0.ty = ⟨Cert.ReferenceIdeal.S_, .f32⟩) (hd : Cert.ReferenceIdeal.main_call2_cst_0.space ≠ .host) (hu : Cert.ReferenceIdeal.main_call2_cst_0.isScoped = false)
    (v : (⟨Cert.ReferenceIdeal.S_, .f32⟩ : BufTy).Contents (Elt Ideal)) : (StableHlo.TRef.of Cert.ReferenceIdeal.main_call2_cst_0 h hd hu).ofBuf v = v := rfl
theorem toBuf_main_call2_v1 (h : Cert.ReferenceIdeal.main_call2_v1.ty = ⟨Cert.ReferenceIdeal.S100000, .f32⟩) (hd : Cert.ReferenceIdeal.main_call2_v1.space ≠ .host) (hu : Cert.ReferenceIdeal.main_call2_v1.isScoped = false)
    (v : (⟨Cert.ReferenceIdeal.S100000, .f32⟩ : BufTy).Contents (Elt Ideal)) : (StableHlo.TRef.of Cert.ReferenceIdeal.main_call2_v1 h hd hu).toBuf v = v := rfl
theorem ofBuf_main_call2_v1 (h : Cert.ReferenceIdeal.main_call2_v1.ty = ⟨Cert.ReferenceIdeal.S100000, .f32⟩) (hd : Cert.ReferenceIdeal.main_call2_v1.space ≠ .host) (hu : Cert.ReferenceIdeal.main_call2_v1.isScoped = false)
    (v : (⟨Cert.ReferenceIdeal.S100000, .f32⟩ : BufTy).Contents (Elt Ideal)) : (StableHlo.TRef.of Cert.ReferenceIdeal.main_call2_v1 h hd hu).ofBuf v = v := rfl
theorem toBuf_main_call2_v2 (h : Cert.ReferenceIdeal.main_call2_v2.ty = ⟨Cert.ReferenceIdeal.S100000, .f32⟩) (hd : Cert.ReferenceIdeal.main_call2_v2.space ≠ .host) (hu : Cert.ReferenceIdeal.main_call2_v2.isScoped = false)
    (v : (⟨Cert.ReferenceIdeal.S100000, .f32⟩ : BufTy).Contents (Elt Ideal)) : (StableHlo.TRef.of Cert.ReferenceIdeal.main_call2_v2 h hd hu).toBuf v = v := rfl
theorem ofBuf_main_call2_v2 (h : Cert.ReferenceIdeal.main_call2_v2.ty = ⟨Cert.ReferenceIdeal.S100000, .f32⟩) (hd : Cert.ReferenceIdeal.main_call2_v2.space ≠ .host) (hu : Cert.ReferenceIdeal.main_call2_v2.isScoped = false)
    (v : (⟨Cert.ReferenceIdeal.S100000, .f32⟩ : BufTy).Contents (Elt Ideal)) : (StableHlo.TRef.of Cert.ReferenceIdeal.main_call2_v2 h hd hu).ofBuf v = v := rfl
theorem toBuf_main_call2_v3 (h : Cert.ReferenceIdeal.main_call2_v3.ty = ⟨Cert.ReferenceIdeal.S100000x1, .f32⟩) (hd : Cert.ReferenceIdeal.main_call2_v3.space ≠ .host) (hu : Cert.ReferenceIdeal.main_call2_v3.isScoped = false)
    (v : (⟨Cert.ReferenceIdeal.S100000x1, .f32⟩ : BufTy).Contents (Elt Ideal)) : (StableHlo.TRef.of Cert.ReferenceIdeal.main_call2_v3 h hd hu).toBuf v = v := rfl
theorem ofBuf_main_call2_v3 (h : Cert.ReferenceIdeal.main_call2_v3.ty = ⟨Cert.ReferenceIdeal.S100000x1, .f32⟩) (hd : Cert.ReferenceIdeal.main_call2_v3.space ≠ .host) (hu : Cert.ReferenceIdeal.main_call2_v3.isScoped = false)
    (v : (⟨Cert.ReferenceIdeal.S100000x1, .f32⟩ : BufTy).Contents (Elt Ideal)) : (StableHlo.TRef.of Cert.ReferenceIdeal.main_call2_v3 h hd hu).ofBuf v = v := rfl
theorem toBuf_main_call2_v4 (h : Cert.ReferenceIdeal.main_call2_v4.ty = ⟨Cert.ReferenceIdeal.S100000x8, .f32⟩) (hd : Cert.ReferenceIdeal.main_call2_v4.space ≠ .host) (hu : Cert.ReferenceIdeal.main_call2_v4.isScoped = false)
    (v : (⟨Cert.ReferenceIdeal.S100000x8, .f32⟩ : BufTy).Contents (Elt Ideal)) : (StableHlo.TRef.of Cert.ReferenceIdeal.main_call2_v4 h hd hu).toBuf v = v := rfl
theorem ofBuf_main_call2_v4 (h : Cert.ReferenceIdeal.main_call2_v4.ty = ⟨Cert.ReferenceIdeal.S100000x8, .f32⟩) (hd : Cert.ReferenceIdeal.main_call2_v4.space ≠ .host) (hu : Cert.ReferenceIdeal.main_call2_v4.isScoped = false)
    (v : (⟨Cert.ReferenceIdeal.S100000x8, .f32⟩ : BufTy).Contents (Elt Ideal)) : (StableHlo.TRef.of Cert.ReferenceIdeal.main_call2_v4 h hd hu).ofBuf v = v := rfl
theorem toBuf_main_call2_v5 (h : Cert.ReferenceIdeal.main_call2_v5.ty = ⟨Cert.ReferenceIdeal.S100000x8, .f32⟩) (hd : Cert.ReferenceIdeal.main_call2_v5.space ≠ .host) (hu : Cert.ReferenceIdeal.main_call2_v5.isScoped = false)
    (v : (⟨Cert.ReferenceIdeal.S100000x8, .f32⟩ : BufTy).Contents (Elt Ideal)) : (StableHlo.TRef.of Cert.ReferenceIdeal.main_call2_v5 h hd hu).toBuf v = v := rfl
theorem ofBuf_main_call2_v5 (h : Cert.ReferenceIdeal.main_call2_v5.ty = ⟨Cert.ReferenceIdeal.S100000x8, .f32⟩) (hd : Cert.ReferenceIdeal.main_call2_v5.space ≠ .host) (hu : Cert.ReferenceIdeal.main_call2_v5.isScoped = false)
    (v : (⟨Cert.ReferenceIdeal.S100000x8, .f32⟩ : BufTy).Contents (Elt Ideal)) : (StableHlo.TRef.of Cert.ReferenceIdeal.main_call2_v5 h hd hu).ofBuf v = v := rfl
theorem toBuf_main_call2_v6 (h : Cert.ReferenceIdeal.main_call2_v6.ty = ⟨Cert.ReferenceIdeal.S100000x8, .f32⟩) (hd : Cert.ReferenceIdeal.main_call2_v6.space ≠ .host) (hu : Cert.ReferenceIdeal.main_call2_v6.isScoped = false)
    (v : (⟨Cert.ReferenceIdeal.S100000x8, .f32⟩ : BufTy).Contents (Elt Ideal)) : (StableHlo.TRef.of Cert.ReferenceIdeal.main_call2_v6 h hd hu).toBuf v = v := rfl
theorem ofBuf_main_call2_v6 (h : Cert.ReferenceIdeal.main_call2_v6.ty = ⟨Cert.ReferenceIdeal.S100000x8, .f32⟩) (hd : Cert.ReferenceIdeal.main_call2_v6.space ≠ .host) (hu : Cert.ReferenceIdeal.main_call2_v6.isScoped = false)
    (v : (⟨Cert.ReferenceIdeal.S100000x8, .f32⟩ : BufTy).Contents (Elt Ideal)) : (StableHlo.TRef.of Cert.ReferenceIdeal.main_call2_v6 h hd hu).ofBuf v = v := rfl
theorem toBuf_main_call2_cst_1 (h : Cert.ReferenceIdeal.main_call2_cst_1.ty = ⟨Cert.ReferenceIdeal.S_, .f32⟩) (hd : Cert.ReferenceIdeal.main_call2_cst_1.space ≠ .host) (hu : Cert.ReferenceIdeal.main_call2_cst_1.isScoped = false)
    (v : (⟨Cert.ReferenceIdeal.S_, .f32⟩ : BufTy).Contents (Elt Ideal)) : (StableHlo.TRef.of Cert.ReferenceIdeal.main_call2_cst_1 h hd hu).toBuf v = v := rfl
theorem ofBuf_main_call2_cst_1 (h : Cert.ReferenceIdeal.main_call2_cst_1.ty = ⟨Cert.ReferenceIdeal.S_, .f32⟩) (hd : Cert.ReferenceIdeal.main_call2_cst_1.space ≠ .host) (hu : Cert.ReferenceIdeal.main_call2_cst_1.isScoped = false)
    (v : (⟨Cert.ReferenceIdeal.S_, .f32⟩ : BufTy).Contents (Elt Ideal)) : (StableHlo.TRef.of Cert.ReferenceIdeal.main_call2_cst_1 h hd hu).ofBuf v = v := rfl
theorem toBuf_main_call2_v7 (h : Cert.ReferenceIdeal.main_call2_v7.ty = ⟨Cert.ReferenceIdeal.S100000, .f32⟩) (hd : Cert.ReferenceIdeal.main_call2_v7.space ≠ .host) (hu : Cert.ReferenceIdeal.main_call2_v7.isScoped = false)
    (v : (⟨Cert.ReferenceIdeal.S100000, .f32⟩ : BufTy).Contents (Elt Ideal)) : (StableHlo.TRef.of Cert.ReferenceIdeal.main_call2_v7 h hd hu).toBuf v = v := rfl
theorem ofBuf_main_call2_v7 (h : Cert.ReferenceIdeal.main_call2_v7.ty = ⟨Cert.ReferenceIdeal.S100000, .f32⟩) (hd : Cert.ReferenceIdeal.main_call2_v7.space ≠ .host) (hu : Cert.ReferenceIdeal.main_call2_v7.isScoped = false)
    (v : (⟨Cert.ReferenceIdeal.S100000, .f32⟩ : BufTy).Contents (Elt Ideal)) : (StableHlo.TRef.of Cert.ReferenceIdeal.main_call2_v7 h hd hu).ofBuf v = v := rfl
theorem toBuf_main_call2_v8 (h : Cert.ReferenceIdeal.main_call2_v8.ty = ⟨Cert.ReferenceIdeal.S100000x1, .f32⟩) (hd : Cert.ReferenceIdeal.main_call2_v8.space ≠ .host) (hu : Cert.ReferenceIdeal.main_call2_v8.isScoped = false)
    (v : (⟨Cert.ReferenceIdeal.S100000x1, .f32⟩ : BufTy).Contents (Elt Ideal)) : (StableHlo.TRef.of Cert.ReferenceIdeal.main_call2_v8 h hd hu).toBuf v = v := rfl
theorem ofBuf_main_call2_v8 (h : Cert.ReferenceIdeal.main_call2_v8.ty = ⟨Cert.ReferenceIdeal.S100000x1, .f32⟩) (hd : Cert.ReferenceIdeal.main_call2_v8.space ≠ .host) (hu : Cert.ReferenceIdeal.main_call2_v8.isScoped = false)
    (v : (⟨Cert.ReferenceIdeal.S100000x1, .f32⟩ : BufTy).Contents (Elt Ideal)) : (StableHlo.TRef.of Cert.ReferenceIdeal.main_call2_v8 h hd hu).ofBuf v = v := rfl
theorem toBuf_main_call2_v9 (h : Cert.ReferenceIdeal.main_call2_v9.ty = ⟨Cert.ReferenceIdeal.S100000x1, .f32⟩) (hd : Cert.ReferenceIdeal.main_call2_v9.space ≠ .host) (hu : Cert.ReferenceIdeal.main_call2_v9.isScoped = false)
    (v : (⟨Cert.ReferenceIdeal.S100000x1, .f32⟩ : BufTy).Contents (Elt Ideal)) : (StableHlo.TRef.of Cert.ReferenceIdeal.main_call2_v9 h hd hu).toBuf v = v := rfl
theorem ofBuf_main_call2_v9 (h : Cert.ReferenceIdeal.main_call2_v9.ty = ⟨Cert.ReferenceIdeal.S100000x1, .f32⟩) (hd : Cert.ReferenceIdeal.main_call2_v9.space ≠ .host) (hu : Cert.ReferenceIdeal.main_call2_v9.isScoped = false)
    (v : (⟨Cert.ReferenceIdeal.S100000x1, .f32⟩ : BufTy).Contents (Elt Ideal)) : (StableHlo.TRef.of Cert.ReferenceIdeal.main_call2_v9 h hd hu).ofBuf v = v := rfl
theorem toBuf_main_call2_v10 (h : Cert.ReferenceIdeal.main_call2_v10.ty = ⟨Cert.ReferenceIdeal.S100000x8, .f32⟩) (hd : Cert.ReferenceIdeal.main_call2_v10.space ≠ .host) (hu : Cert.ReferenceIdeal.main_call2_v10.isScoped = false)
    (v : (⟨Cert.ReferenceIdeal.S100000x8, .f32⟩ : BufTy).Contents (Elt Ideal)) : (StableHlo.TRef.of Cert.ReferenceIdeal.main_call2_v10 h hd hu).toBuf v = v := rfl
theorem ofBuf_main_call2_v10 (h : Cert.ReferenceIdeal.main_call2_v10.ty = ⟨Cert.ReferenceIdeal.S100000x8, .f32⟩) (hd : Cert.ReferenceIdeal.main_call2_v10.space ≠ .host) (hu : Cert.ReferenceIdeal.main_call2_v10.isScoped = false)
    (v : (⟨Cert.ReferenceIdeal.S100000x8, .f32⟩ : BufTy).Contents (Elt Ideal)) : (StableHlo.TRef.of Cert.ReferenceIdeal.main_call2_v10 h hd hu).ofBuf v = v := rfl
theorem toBuf_main_v67 (h : Cert.ReferenceIdeal.main_v67.ty = ⟨Cert.ReferenceIdeal.S100000x8, .f32⟩) (hd : Cert.ReferenceIdeal.main_v67.space ≠ .host) (hu : Cert.ReferenceIdeal.main_v67.isScoped = false)
    (v : (⟨Cert.ReferenceIdeal.S100000x8, .f32⟩ : BufTy).Contents (Elt Ideal)) : (StableHlo.TRef.of Cert.ReferenceIdeal.main_v67 h hd hu).toBuf v = v := rfl
theorem ofBuf_main_v67 (h : Cert.ReferenceIdeal.main_v67.ty = ⟨Cert.ReferenceIdeal.S100000x8, .f32⟩) (hd : Cert.ReferenceIdeal.main_v67.space ≠ .host) (hu : Cert.ReferenceIdeal.main_v67.isScoped = false)
    (v : (⟨Cert.ReferenceIdeal.S100000x8, .f32⟩ : BufTy).Contents (Elt Ideal)) : (StableHlo.TRef.of Cert.ReferenceIdeal.main_v67 h hd hu).ofBuf v = v := rfl

/-- Operations 86–87: each row's maximum from −∞. -/
def segE1 : List (HloOp Cert.ReferenceIdeal.τ Cert.ReferenceIdeal.sig (Elt Ideal)) := (rops.drop 85).take 2
/-- Operations 88–90: the maximum of that with a broadcast −∞. -/
def segE2 : List (HloOp Cert.ReferenceIdeal.τ Cert.ReferenceIdeal.sig (Elt Ideal)) := (rops.drop 87).take 3
/-- Operations 91–93: the rows less their maxima. -/
def segE3 : List (HloOp Cert.ReferenceIdeal.τ Cert.ReferenceIdeal.sig (Elt Ideal)) := (rops.drop 90).take 3
/-- Operations 94–96: the sums of the exponentials. -/
def segE4 : List (HloOp Cert.ReferenceIdeal.τ Cert.ReferenceIdeal.sig (Elt Ideal)) := (rops.drop 93).take 3
/-- Operations 97–100: the rows less the logarithms of those sums. -/
def segE5 : List (HloOp Cert.ReferenceIdeal.τ Cert.ReferenceIdeal.sig (Elt Ideal)) := rops.drop 96

theorem segE_split : segE = segE1 ++ (segE2 ++ (segE3 ++ (segE4 ++ segE5))) := by
  simp only [segE, segE1, segE2, segE3, segE4, segE5, rops, Cert.ReferenceIdeal.RunP.ops, List.drop_succ_cons, List.drop_zero, List.take_succ_cons,
    List.take_zero, List.cons_append, List.nil_append]

theorem segE1_v0 (W : Valuation Cert.ReferenceIdeal.τ Cert.ReferenceIdeal.sig (Elt Ideal)) : after segE1 W (Proc.devRef .tc Cert.ReferenceIdeal.main_call2_v0)
    = (Host.reduce FloatOps.maximumf ((W (Proc.devRef .tc Cert.ReferenceIdeal.main_v66)) : FVec Ideal Cert.ReferenceIdeal.S100000x8 .f32) (constant (F := Ideal) Cert.ReferenceIdeal.S_ .f32 0xFF800000#32) Cert.ReferenceIdeal.Gen.reducesTo_S100000x8_S100000_d1 Cert.ReferenceIdeal.Gen.h_S_ : FVec Ideal Cert.ReferenceIdeal.S100000 .f32) := by
  simp only [segE1, rops, Cert.ReferenceIdeal.RunP.ops, List.drop_succ_cons, List.drop_zero, List.take_succ_cons, List.take_zero]
  after_results_simp
  simp only [toBuf_main_call2_cst, ofBuf_main_call2_cst, toBuf_main_v66, ofBuf_main_v66, toBuf_main_call2_v0, ofBuf_main_call2_v0]
theorem segE1_v66 (W : Valuation Cert.ReferenceIdeal.τ Cert.ReferenceIdeal.sig (Elt Ideal)) : after segE1 W (Proc.devRef .tc Cert.ReferenceIdeal.main_v66) = W (Proc.devRef .tc Cert.ReferenceIdeal.main_v66) := by
  simp only [segE1, rops, Cert.ReferenceIdeal.RunP.ops, List.drop_succ_cons, List.drop_zero, List.take_succ_cons, List.take_zero]
  after_results_simp

theorem segE2_v2 (W : Valuation Cert.ReferenceIdeal.τ Cert.ReferenceIdeal.sig (Elt Ideal)) : after segE2 W (Proc.devRef .tc Cert.ReferenceIdeal.main_call2_v2)
    = (maximumf (broadcastInDim Cert.ReferenceIdeal.S100000 ![] Cert.ReferenceIdeal.Gen.bcast_S_S100000 (constant (F := Ideal) Cert.ReferenceIdeal.S_ .f32 0xFF800000#32)) ((W (Proc.devRef .tc Cert.ReferenceIdeal.main_call2_v0)) : FVec Ideal Cert.ReferenceIdeal.S100000 .f32) : FVec Ideal Cert.ReferenceIdeal.S100000 .f32) := by
  simp only [segE2, rops, Cert.ReferenceIdeal.RunP.ops, List.drop_succ_cons, List.drop_zero, List.take_succ_cons, List.take_zero]
  after_results_simp
  simp only [toBuf_main_call2_cst_0, ofBuf_main_call2_cst_0, toBuf_main_call2_v1, ofBuf_main_call2_v1, toBuf_main_call2_v0, ofBuf_main_call2_v0, toBuf_main_call2_v2, ofBuf_main_call2_v2]
theorem segE2_v66 (W : Valuation Cert.ReferenceIdeal.τ Cert.ReferenceIdeal.sig (Elt Ideal)) : after segE2 W (Proc.devRef .tc Cert.ReferenceIdeal.main_v66) = W (Proc.devRef .tc Cert.ReferenceIdeal.main_v66) := by
  simp only [segE2, rops, Cert.ReferenceIdeal.RunP.ops, List.drop_succ_cons, List.drop_zero, List.take_succ_cons, List.take_zero]
  after_results_simp

theorem segE3_v5 (W : Valuation Cert.ReferenceIdeal.τ Cert.ReferenceIdeal.sig (Elt Ideal)) : after segE3 W (Proc.devRef .tc Cert.ReferenceIdeal.main_call2_v5)
    = (subf ((W (Proc.devRef .tc Cert.ReferenceIdeal.main_v66)) : FVec Ideal Cert.ReferenceIdeal.S100000x8 .f32) (broadcastInDim Cert.ReferenceIdeal.S100000x8 ![0, 1] Cert.ReferenceIdeal.Gen.bcast_S100000x1_S100000x8_0_1 (broadcastInDim Cert.ReferenceIdeal.S100000x1 ![0] Cert.ReferenceIdeal.Gen.bcast_S100000_S100000x1_0 ((W (Proc.devRef .tc Cert.ReferenceIdeal.main_call2_v2)) : FVec Ideal Cert.ReferenceIdeal.S100000 .f32))) : FVec Ideal Cert.ReferenceIdeal.S100000x8 .f32) := by
  simp only [segE3, rops, Cert.ReferenceIdeal.RunP.ops, List.drop_succ_cons, List.drop_zero, List.take_succ_cons, List.take_zero]
  after_results_simp
  simp only [toBuf_main_call2_v2, ofBuf_main_call2_v2, toBuf_main_call2_v3, ofBuf_main_call2_v3, toBuf_main_call2_v4, ofBuf_main_call2_v4, toBuf_main_v66, ofBuf_main_v66, toBuf_main_call2_v5, ofBuf_main_call2_v5]

theorem segE4_v7 (W : Valuation Cert.ReferenceIdeal.τ Cert.ReferenceIdeal.sig (Elt Ideal)) : after segE4 W (Proc.devRef .tc Cert.ReferenceIdeal.main_call2_v7)
    = (Host.reduceAdd (Host.exp ((W (Proc.devRef .tc Cert.ReferenceIdeal.main_call2_v5)) : FVec Ideal Cert.ReferenceIdeal.S100000x8 .f32)) (constant (F := Ideal) Cert.ReferenceIdeal.S_ .f32 0x00000000#32) Cert.ReferenceIdeal.Gen.reducesTo_S100000x8_S100000_d1 Cert.ReferenceIdeal.Gen.h_S_ : FVec Ideal Cert.ReferenceIdeal.S100000 .f32) := by
  simp only [segE4, rops, Cert.ReferenceIdeal.RunP.ops, List.drop_succ_cons, List.drop_zero, List.take_succ_cons, List.take_zero]
  after_results_simp
  simp only [toBuf_main_call2_v5, ofBuf_main_call2_v5, toBuf_main_call2_v6, ofBuf_main_call2_v6, toBuf_main_call2_cst_1, ofBuf_main_call2_cst_1, toBuf_main_call2_v7, ofBuf_main_call2_v7]
theorem segE4_v5 (W : Valuation Cert.ReferenceIdeal.τ Cert.ReferenceIdeal.sig (Elt Ideal)) : after segE4 W (Proc.devRef .tc Cert.ReferenceIdeal.main_call2_v5) = W (Proc.devRef .tc Cert.ReferenceIdeal.main_call2_v5) := by
  simp only [segE4, rops, Cert.ReferenceIdeal.RunP.ops, List.drop_succ_cons, List.drop_zero, List.take_succ_cons, List.take_zero]
  after_results_simp

theorem segE5_v67 (W : Valuation Cert.ReferenceIdeal.τ Cert.ReferenceIdeal.sig (Elt Ideal)) : after segE5 W (Proc.devRef .tc Cert.ReferenceIdeal.main_v67)
    = (subf ((W (Proc.devRef .tc Cert.ReferenceIdeal.main_call2_v5)) : FVec Ideal Cert.ReferenceIdeal.S100000x8 .f32) (broadcastInDim Cert.ReferenceIdeal.S100000x8 ![0, 1] Cert.ReferenceIdeal.Gen.bcast_S100000x1_S100000x8_0_1 (Host.log (broadcastInDim Cert.ReferenceIdeal.S100000x1 ![0] Cert.ReferenceIdeal.Gen.bcast_S100000_S100000x1_0 ((W (Proc.devRef .tc Cert.ReferenceIdeal.main_call2_v7)) : FVec Ideal Cert.ReferenceIdeal.S100000 .f32)))) : FVec Ideal Cert.ReferenceIdeal.S100000x8 .f32) := by
  simp only [segE5, rops, Cert.ReferenceIdeal.RunP.ops, List.drop_succ_cons, List.drop_zero]
  after_results_simp
  simp only [toBuf_main_call2_v7, ofBuf_main_call2_v7, toBuf_main_call2_v8, ofBuf_main_call2_v8, toBuf_main_call2_v9, ofBuf_main_call2_v9, toBuf_main_call2_v10, ofBuf_main_call2_v10, toBuf_main_call2_v5, ofBuf_main_call2_v5, toBuf_main_v67, ofBuf_main_v67]

theorem segE_v67 (W : Valuation Cert.ReferenceIdeal.τ Cert.ReferenceIdeal.sig (Elt Ideal)) : after segE W (Proc.devRef .tc Cert.ReferenceIdeal.main_v67) = rLogSoftmax (W (Proc.devRef .tc Cert.ReferenceIdeal.main_v66)) := by
  rw [segE_split, after_append, after_append, after_append, after_append,
    segE5_v67, segE4_v5, segE4_v7, segE3_v5, segE2_v2, segE2_v66, segE1_v0, segE1_v66]
  rfl

/-! ## What each stretch keeps -/

theorem segA_v5 (W : Valuation Cert.ReferenceIdeal.τ Cert.ReferenceIdeal.sig (Elt Ideal)) :
    after segA W (Proc.devRef .tc Cert.ReferenceIdeal.main_v5) = W (Proc.devRef .tc Cert.ReferenceIdeal.main_v5) := by
  simp only [segA, rops, Cert.ReferenceIdeal.RunP.ops, List.drop_succ_cons, List.drop_zero, List.take_succ_cons, List.take_zero]
  after_results_simp
theorem segA_v6 (W : Valuation Cert.ReferenceIdeal.τ Cert.ReferenceIdeal.sig (Elt Ideal)) :
    after segA W (Proc.devRef .tc Cert.ReferenceIdeal.main_v6) = W (Proc.devRef .tc Cert.ReferenceIdeal.main_v6) := by
  simp only [segA, rops, Cert.ReferenceIdeal.RunP.ops, List.drop_succ_cons, List.drop_zero, List.take_succ_cons, List.take_zero]
  after_results_simp
theorem segA_v31 (W : Valuation Cert.ReferenceIdeal.τ Cert.ReferenceIdeal.sig (Elt Ideal)) :
    after segA W (Proc.devRef .tc Cert.ReferenceIdeal.main_v31) = W (Proc.devRef .tc Cert.ReferenceIdeal.main_v31) := by
  simp only [segA, rops, Cert.ReferenceIdeal.RunP.ops, List.drop_succ_cons, List.drop_zero, List.take_succ_cons, List.take_zero]
  after_results_simp
theorem segA_arg4 (W : Valuation Cert.ReferenceIdeal.τ Cert.ReferenceIdeal.sig (Elt Ideal)) :
    after segA W (Proc.devRef .tc Cert.ReferenceIdeal.main_arg4) = W (Proc.devRef .tc Cert.ReferenceIdeal.main_arg4) := by
  simp only [segA, rops, Cert.ReferenceIdeal.RunP.ops, List.drop_succ_cons, List.drop_zero, List.take_succ_cons, List.take_zero]
  after_results_simp
theorem segA_arg5 (W : Valuation Cert.ReferenceIdeal.τ Cert.ReferenceIdeal.sig (Elt Ideal)) :
    after segA W (Proc.devRef .tc Cert.ReferenceIdeal.main_arg5) = W (Proc.devRef .tc Cert.ReferenceIdeal.main_arg5) := by
  simp only [segA, rops, Cert.ReferenceIdeal.RunP.ops, List.drop_succ_cons, List.drop_zero, List.take_succ_cons, List.take_zero]
  after_results_simp
theorem segA_arg6 (W : Valuation Cert.ReferenceIdeal.τ Cert.ReferenceIdeal.sig (Elt Ideal)) :
    after segA W (Proc.devRef .tc Cert.ReferenceIdeal.main_arg6) = W (Proc.devRef .tc Cert.ReferenceIdeal.main_arg6) := by
  simp only [segA, rops, Cert.ReferenceIdeal.RunP.ops, List.drop_succ_cons, List.drop_zero, List.take_succ_cons, List.take_zero]
  after_results_simp
theorem segB_v5 (W : Valuation Cert.ReferenceIdeal.τ Cert.ReferenceIdeal.sig (Elt Ideal)) :
    after segB W (Proc.devRef .tc Cert.ReferenceIdeal.main_v5) = W (Proc.devRef .tc Cert.ReferenceIdeal.main_v5) := by
  simp only [segB, rops, Cert.ReferenceIdeal.RunP.ops, List.drop_succ_cons, List.drop_zero, List.take_succ_cons, List.take_zero]
  after_results_simp
theorem segB_v6 (W : Valuation Cert.ReferenceIdeal.τ Cert.ReferenceIdeal.sig (Elt Ideal)) :
    after segB W (Proc.devRef .tc Cert.ReferenceIdeal.main_v6) = W (Proc.devRef .tc Cert.ReferenceIdeal.main_v6) := by
  simp only [segB, rops, Cert.ReferenceIdeal.RunP.ops, List.drop_succ_cons, List.drop_zero, List.take_succ_cons, List.take_zero]
  after_results_simp
theorem segB_v31 (W : Valuation Cert.ReferenceIdeal.τ Cert.ReferenceIdeal.sig (Elt Ideal)) :
    after segB W (Proc.devRef .tc Cert.ReferenceIdeal.main_v31) = W (Proc.devRef .tc Cert.ReferenceIdeal.main_v31) := by
  simp only [segB, rops, Cert.ReferenceIdeal.RunP.ops, List.drop_succ_cons, List.drop_zero, List.take_succ_cons, List.take_zero]
  after_results_simp
theorem segB_arg6 (W : Valuation Cert.ReferenceIdeal.τ Cert.ReferenceIdeal.sig (Elt Ideal)) :
    after segB W (Proc.devRef .tc Cert.ReferenceIdeal.main_arg6) = W (Proc.devRef .tc Cert.ReferenceIdeal.main_arg6) := by
  simp only [segB, rops, Cert.ReferenceIdeal.RunP.ops, List.drop_succ_cons, List.drop_zero, List.take_succ_cons, List.take_zero]
  after_results_simp
theorem segC_arg6 (W : Valuation Cert.ReferenceIdeal.τ Cert.ReferenceIdeal.sig (Elt Ideal)) :
    after segC W (Proc.devRef .tc Cert.ReferenceIdeal.main_arg6) = W (Proc.devRef .tc Cert.ReferenceIdeal.main_arg6) := by
  simp only [segC, rops, Cert.ReferenceIdeal.RunP.ops, List.drop_succ_cons, List.drop_zero, List.take_succ_cons, List.take_zero]
  after_results_simp

/-! ## The tail -/

/-- The reference's two layers are the kernel's function of the edge arrays and the arguments. -/
theorem tail_eq (W : Valuation Cert.ReferenceIdeal.τ Cert.ReferenceIdeal.sig (Elt Ideal))
    (src dst : IVec Cert.KernelIdeal.S3300000 32) (nrm : FVec Ideal Cert.KernelIdeal.S3300000 .f32)
    (x : FVec Ideal Cert.KernelIdeal.S100000x512 .f32) (w1 : FVec Ideal Cert.KernelIdeal.S512x16 .f32) (b1 : FVec Ideal Cert.KernelIdeal.S16 .f32)
    (w2 : FVec Ideal Cert.KernelIdeal.S16x8 .f32) (b2 : FVec Ideal Cert.KernelIdeal.S8 .f32)
    (h5 : W (Proc.devRef .tc Cert.ReferenceIdeal.main_v5) = src) (h6 : W (Proc.devRef .tc Cert.ReferenceIdeal.main_v6) = dst)
    (h31 : W (Proc.devRef .tc Cert.ReferenceIdeal.main_v31) = nrm)
    (ha0 : W (Proc.devRef .tc Cert.ReferenceIdeal.main_arg0) = x) (ha3 : W (Proc.devRef .tc Cert.ReferenceIdeal.main_arg3) = w1)
    (ha4 : W (Proc.devRef .tc Cert.ReferenceIdeal.main_arg4) = b1) (ha5 : W (Proc.devRef .tc Cert.ReferenceIdeal.main_arg5) = w2)
    (ha6 : W (Proc.devRef .tc Cert.ReferenceIdeal.main_arg6) = b2) :
    after ((Cert.ReferenceIdeal.RunP.ops (F := Ideal)).drop 42) W (Proc.devRef .tc Cert.ReferenceIdeal.main_v67)
      = Cert.KernelIdeal.Glue.result src dst nrm x w1 (shapeCast Cert.KernelIdeal.S1x16 b1 Cert.KernelIdeal.Facts₀.shapeCasts_S16_S1x16) w2
          (shapeCast Cert.KernelIdeal.S1x8 b2 Cert.KernelIdeal.Facts₀.shapeCasts_S8_S1x8) := by
  show after (rops.drop 42) W _ = _
  rw [tail_split, after_append, after_append, after_append, after_append]
  rw [segE_v67, segD_v66, segC_v63, segC_arg6, segB_v50, segB_v5, segB_v6, segB_v31, segB_arg6,
    segA_v45, segA_v5, segA_v6, segA_v31, segA_arg4, segA_arg5, segA_arg6, h5, h6, h31, ha0, ha3, ha4, ha5, ha6]
  exact rResult_eq src dst nrm x w1 b1 w2 b2

end Cert.Bridge

end
-- ==== Proof.Prefix.lean ====
/-
  The edge arrays are computed alike.

  The reference's first 42 operations and the kernel's first three stretches of host operations are the same
  operations, word for word: the two rows of the edge-index argument with the self-loops appended (sources,
  destinations), the edge weights with ones appended, the weighted in-degree by a scatter-add, its reciprocal square
  root where positive and zero elsewhere, and each edge's weight multiplied by that factor at its source and at its
  destination. Both are cut where the kernel's text is cut — before and after the three operations of the `where`
  — and compared stretch by stretch on any two contents: agreeing at the edge-index and edge-weight arguments they
  leave the same sources, destinations and weights.
-/
import proofs.«113998_j57312043598543_2_alg».proof.Proof.Bridge

set_option maxRecDepth 65536

noncomputable section

open Idealize.ShloMosaic Idealize.ShloMosaic.TcCoe Idealize.SL.Sem Idealize.ShloMosaic.StableHlo

namespace Cert.Bridge

open Cert.ReferenceIdeal.RefRun (after_append)

/-! A value written to, or read from, a typed reference's buffer is the value: the buffer's type is the value's. -/

namespace R
theorem toBuf_main_cst_2 (h : Cert.ReferenceIdeal.main_cst_2.ty = ⟨Cert.ReferenceIdeal.S_, .f32⟩) (hd : Cert.ReferenceIdeal.main_cst_2.space ≠ .host) (hu : Cert.ReferenceIdeal.main_cst_2.isScoped = false)
    (v : (⟨Cert.ReferenceIdeal.S_, .f32⟩ : BufTy).Contents (Elt Ideal)) : (StableHlo.TRef.of Cert.ReferenceIdeal.main_cst_2 h hd hu).toBuf v = v := rfl
theorem ofBuf_main_cst_2 (h : Cert.ReferenceIdeal.main_cst_2.ty = ⟨Cert.ReferenceIdeal.S_, .f32⟩) (hd : Cert.ReferenceIdeal.main_cst_2.space ≠ .host) (hu : Cert.ReferenceIdeal.main_cst_2.isScoped = false)
    (v : (⟨Cert.ReferenceIdeal.S_, .f32⟩ : BufTy).Contents (Elt Ideal)) : (StableHlo.TRef.of Cert.ReferenceIdeal.main_cst_2 h hd hu).ofBuf v = v := rfl
theorem toBuf_main_call0_v0 (h : Cert.ReferenceIdeal.main_call0_v0.ty = ⟨Cert.ReferenceIdeal.S_, .f32⟩) (hd : Cert.ReferenceIdeal.main_call0_v0.space ≠ .host) (hu : Cert.ReferenceIdeal.main_call0_v0.isScoped = false)
    (v : (⟨Cert.ReferenceIdeal.S_, .f32⟩ : BufTy).Contents (Elt Ideal)) : (StableHlo.TRef.of Cert.ReferenceIdeal.main_call0_v0 h hd hu).toBuf v = v := rfl
theorem ofBuf_main_call0_v0 (h : Cert.ReferenceIdeal.main_call0_v0.ty = ⟨Cert.ReferenceIdeal.S_, .f32⟩) (hd : Cert.ReferenceIdeal.main_call0_v0.space ≠ .host) (hu : Cert.ReferenceIdeal.main_call0_v0.isScoped = false)
    (v : (⟨Cert.ReferenceIdeal.S_, .f32⟩ : BufTy).Contents (Elt Ideal)) : (StableHlo.TRef.of Cert.ReferenceIdeal.main_call0_v0 h hd hu).ofBuf v = v := rfl
theorem toBuf_main_call0_v1 (h : Cert.ReferenceIdeal.main_call0_v1.ty = ⟨Cert.ReferenceIdeal.S100000, .f32⟩) (hd : Cert.ReferenceIdeal.main_call0_v1.space ≠ .host) (hu : Cert.ReferenceIdeal.main_call0_v1.isScoped = false)
    (v : (⟨Cert.ReferenceIdeal.S100000, .f32⟩ : BufTy).Contents (Elt Ideal)) : (StableHlo.TRef.of Cert.ReferenceIdeal.main_call0_v1 h hd hu).toBuf v = v := rfl
theorem ofBuf_main_call0_v1 (h : Cert.ReferenceIdeal.main_call0_v1.ty = ⟨Cert.ReferenceIdeal.S100000, .f32⟩) (hd : Cert.ReferenceIdeal.main_call0_v1.space ≠ .host) (hu : Cert.ReferenceIdeal.main_call0_v1.isScoped = false)
    (v : (⟨Cert.ReferenceIdeal.S100000, .f32⟩ : BufTy).Contents (Elt Ideal)) : (StableHlo.TRef.of Cert.ReferenceIdeal.main_call0_v1 h hd hu).ofBuf v = v := rfl
theorem toBuf_main_v13 (h : Cert.ReferenceIdeal.main_v13.ty = ⟨Cert.ReferenceIdeal.S100000, .i1⟩) (hd : Cert.ReferenceIdeal.main_v13.space ≠ .host) (hu : Cert.ReferenceIdeal.main_v13.isScoped = false)
    (v : (⟨Cert.ReferenceIdeal.S100000, .i1⟩ : BufTy).Contents (Elt Ideal)) : (StableHlo.TRef.of Cert.ReferenceIdeal.main_v13 h hd hu).toBuf v = v := rfl
theorem ofBuf_main_v13 (h : Cert.ReferenceIdeal.main_v13.ty = ⟨Cert.ReferenceIdeal.S100000, .i1⟩) (hd : Cert.ReferenceIdeal.main_v13.space ≠ .host) (hu : Cert.ReferenceIdeal.main_v13.isScoped = false)
    (v : (⟨Cert.ReferenceIdeal.S100000, .i1⟩ : BufTy).Contents (Elt Ideal)) : (StableHlo.TRef.of Cert.ReferenceIdeal.main_v13 h hd hu).ofBuf v = v := rfl
theorem toBuf_main_v14 (h : Cert.ReferenceIdeal.main_v14.ty = ⟨Cert.ReferenceIdeal.S100000, .f32⟩) (hd : Cert.ReferenceIdeal.main_v14.space ≠ .host) (hu : Cert.ReferenceIdeal.main_v14.isScoped = false)
    (v : (⟨Cert.ReferenceIdeal.S100000, .f32⟩ : BufTy).Contents (Elt Ideal)) : (StableHlo.TRef.of Cert.ReferenceIdeal.main_v14 h hd hu).toBuf v = v := rfl
theorem ofBuf_main_v14 (h : Cert.ReferenceIdeal.main_v14.ty = ⟨Cert.ReferenceIdeal.S100000, .f32⟩) (hd : Cert.ReferenceIdeal.main_v14.space ≠ .host) (hu : Cert.ReferenceIdeal.main_v14.isScoped = false)
    (v : (⟨Cert.ReferenceIdeal.S100000, .f32⟩ : BufTy).Contents (Elt Ideal)) : (StableHlo.TRef.of Cert.ReferenceIdeal.main_v14 h hd hu).ofBuf v = v := rfl
theorem toBuf_main_v15 (h : Cert.ReferenceIdeal.main_v15.ty = ⟨Cert.ReferenceIdeal.S100000, .f32⟩) (hd : Cert.ReferenceIdeal.main_v15.space ≠ .host) (hu : Cert.ReferenceIdeal.main_v15.isScoped = false)
    (v : (⟨Cert.ReferenceIdeal.S100000, .f32⟩ : BufTy).Contents (Elt Ideal)) : (StableHlo.TRef.of Cert.ReferenceIdeal.main_v15 h hd hu).toBuf v = v := rfl
theorem ofBuf_main_v15 (h : Cert.ReferenceIdeal.main_v15.ty = ⟨Cert.ReferenceIdeal.S100000, .f32⟩) (hd : Cert.ReferenceIdeal.main_v15.space ≠ .host) (hu : Cert.ReferenceIdeal.main_v15.isScoped = false)
    (v : (⟨Cert.ReferenceIdeal.S100000, .f32⟩ : BufTy).Contents (Elt Ideal)) : (StableHlo.TRef.of Cert.ReferenceIdeal.main_v15 h hd hu).ofBuf v = v := rfl
end R
namespace K
theorem toBuf_main_cst_2 (h : Cert.KernelIdeal.main_cst_2.ty = ⟨Cert.KernelIdeal.S_, .f32⟩) (hd : Cert.KernelIdeal.main_cst_2.space ≠ .host) (hu : Cert.KernelIdeal.main_cst_2.isScoped = false)
    (v : (⟨Cert.KernelIdeal.S_, .f32⟩ : BufTy).Contents (Elt Ideal)) : (StableHlo.TRef.of Cert.KernelIdeal.main_cst_2 h hd hu).toBuf v = v := rfl
theorem ofBuf_main_cst_2 (h : Cert.KernelIdeal.main_cst_2.ty = ⟨Cert.KernelIdeal.S_, .f32⟩) (hd : Cert.KernelIdeal.main_cst_2.space ≠ .host) (hu : Cert.KernelIdeal.main_cst_2.isScoped = false)
    (v : (⟨Cert.KernelIdeal.S_, .f32⟩ : BufTy).Contents (Elt Ideal)) : (StableHlo.TRef.of Cert.KernelIdeal.main_cst_2 h hd hu).ofBuf v = v := rfl
theorem toBuf_main_call0_v0 (h : Cert.KernelIdeal.main_call0_v0.ty = ⟨Cert.KernelIdeal.S_, .f32⟩) (hd : Cert.KernelIdeal.main_call0_v0.space ≠ .host) (hu : Cert.KernelIdeal.main_call0_v0.isScoped = false)
    (v : (⟨Cert.KernelIdeal.S_, .f32⟩ : BufTy).Contents (Elt Ideal)) : (StableHlo.TRef.of Cert.KernelIdeal.main_call0_v0 h hd hu).toBuf v = v := rfl
theorem ofBuf_main_call0_v0 (h : Cert.KernelIdeal.main_call0_v0.ty = ⟨Cert.KernelIdeal.S_, .f32⟩) (hd : Cert.KernelIdeal.main_call0_v0.space ≠ .host) (hu : Cert.KernelIdeal.main_call0_v0.isScoped = false)
    (v : (⟨Cert.KernelIdeal.S_, .f32⟩ : BufTy).Contents (Elt Ideal)) : (StableHlo.TRef.of Cert.KernelIdeal.main_call0_v0 h hd hu).ofBuf v = v := rfl
theorem toBuf_main_call0_v1 (h : Cert.KernelIdeal.main_call0_v1.ty = ⟨Cert.KernelIdeal.S100000, .f32⟩) (hd : Cert.KernelIdeal.main_call0_v1.space ≠ .host) (hu : Cert.KernelIdeal.main_call0_v1.isScoped = false)
    (v : (⟨Cert.KernelIdeal.S100000, .f32⟩ : BufTy).Contents (Elt Ideal)) : (StableHlo.TRef.of Cert.KernelIdeal.main_call0_v1 h hd hu).toBuf v = v := rfl
theorem ofBuf_main_call0_v1 (h : Cert.KernelIdeal.main_call0_v1.ty = ⟨Cert.KernelIdeal.S100000, .f32⟩) (hd : Cert.KernelIdeal.main_call0_v1.space ≠ .host) (hu : Cert.KernelIdeal.main_call0_v1.isScoped = false)
    (v : (⟨Cert.KernelIdeal.S100000, .f32⟩ : BufTy).Contents (Elt Ideal)) : (StableHlo.TRef.of Cert.KernelIdeal.main_call0_v1 h hd hu).ofBuf v = v := rfl
theorem toBuf_main_v13 (h : Cert.KernelIdeal.main_v13.ty = ⟨Cert.KernelIdeal.S100000, .i1⟩) (hd : Cert.KernelIdeal.main_v13.space ≠ .host) (hu : Cert.KernelIdeal.main_v13.isScoped = false)
    (v : (⟨Cert.KernelIdeal.S100000, .i1⟩ : BufTy).Contents (Elt Ideal)) : (StableHlo.TRef.of Cert.KernelIdeal.main_v13 h hd hu).toBuf v = v := rfl
theorem ofBuf_main_v13 (h : Cert.KernelIdeal.main_v13.ty = ⟨Cert.KernelIdeal.S100000, .i1⟩) (hd : Cert.KernelIdeal.main_v13.space ≠ .host) (hu : Cert.KernelIdeal.main_v13.isScoped = false)
    (v : (⟨Cert.KernelIdeal.S100000, .i1⟩ : BufTy).Contents (Elt Ideal)) : (StableHlo.TRef.of Cert.KernelIdeal.main_v13 h hd hu).ofBuf v = v := rfl
theorem toBuf_main_v14 (h : Cert.KernelIdeal.main_v14.ty = ⟨Cert.KernelIdeal.S100000, .f32⟩) (hd : Cert.KernelIdeal.main_v14.space ≠ .host) (hu : Cert.KernelIdeal.main_v14.isScoped = false)
    (v : (⟨Cert.KernelIdeal.S100000, .f32⟩ : BufTy).Contents (Elt Ideal)) : (StableHlo.TRef.of Cert.KernelIdeal.main_v14 h hd hu).toBuf v = v := rfl
theorem ofBuf_main_v14 (h : Cert.KernelIdeal.main_v14.ty = ⟨Cert.KernelIdeal.S100000, .f32⟩) (hd : Cert.KernelIdeal.main_v14.space ≠ .host) (hu : Cert.KernelIdeal.main_v14.isScoped = false)
    (v : (⟨Cert.KernelIdeal.S100000, .f32⟩ : BufTy).Contents (Elt Ideal)) : (StableHlo.TRef.of Cert.KernelIdeal.main_v14 h hd hu).ofBuf v = v := rfl
theorem toBuf_main_v15 (h : Cert.KernelIdeal.main_v15.ty = ⟨Cert.KernelIdeal.S100000, .f32⟩) (hd : Cert.KernelIdeal.main_v15.space ≠ .host) (hu : Cert.KernelIdeal.main_v15.isScoped = false)
    (v : (⟨Cert.KernelIdeal.S100000, .f32⟩ : BufTy).Contents (Elt Ideal)) : (StableHlo.TRef.of Cert.KernelIdeal.main_v15 h hd hu).toBuf v = v := rfl
theorem ofBuf_main_v15 (h : Cert.KernelIdeal.main_v15.ty = ⟨Cert.KernelIdeal.S100000, .f32⟩) (hd : Cert.KernelIdeal.main_v15.space ≠ .host) (hu : Cert.KernelIdeal.main_v15.isScoped = false)
    (v : (⟨Cert.KernelIdeal.S100000, .f32⟩ : BufTy).Contents (Elt Ideal)) : (StableHlo.TRef.of Cert.KernelIdeal.main_v15 h hd hu).ofBuf v = v := rfl
end K

/-! Two vectors laid end to end, as a function of the two (the operation itself takes them inside a list of
    shape–array pairs). -/

/-- Two index vectors laid end to end. -/
def catIR (a : (⟨Cert.ReferenceIdeal.S3200000, .i32⟩ : BufTy).Contents (Elt Ideal)) (b : (⟨Cert.ReferenceIdeal.S100000, .i32⟩ : BufTy).Contents (Elt Ideal)) :
    (⟨Cert.ReferenceIdeal.S3300000, .i32⟩ : BufTy).Contents (Elt Ideal) :=
  concatenate Cert.ReferenceIdeal.S3300000 0 [⟨Cert.ReferenceIdeal.S3200000, a⟩, ⟨Cert.ReferenceIdeal.S100000, b⟩] Cert.ReferenceIdeal.Gen.concatenates_S3200000_S100000_S3300000_d0
/-- Two float vectors laid end to end. -/
def catFR (a : (⟨Cert.ReferenceIdeal.S3200000, .f32⟩ : BufTy).Contents (Elt Ideal)) (b : (⟨Cert.ReferenceIdeal.S100000, .f32⟩ : BufTy).Contents (Elt Ideal)) :
    (⟨Cert.ReferenceIdeal.S3300000, .f32⟩ : BufTy).Contents (Elt Ideal) :=
  concatenate Cert.ReferenceIdeal.S3300000 0 [⟨Cert.ReferenceIdeal.S3200000, a⟩, ⟨Cert.ReferenceIdeal.S100000, b⟩] Cert.ReferenceIdeal.Gen.concatenates_S3200000_S100000_S3300000_d0
theorem catIR_eq : ((fun a b => concatenate Cert.ReferenceIdeal.S3300000 0 [⟨Cert.ReferenceIdeal.S3200000, a⟩, ⟨Cert.ReferenceIdeal.S100000, b⟩] Cert.ReferenceIdeal.Gen.concatenates_S3200000_S100000_S3300000_d0) :
    (⟨Cert.ReferenceIdeal.S3200000, .i32⟩ : BufTy).Contents (Elt Ideal) → (⟨Cert.ReferenceIdeal.S100000, .i32⟩ : BufTy).Contents (Elt Ideal) → (⟨Cert.ReferenceIdeal.S3300000, .i32⟩ : BufTy).Contents (Elt Ideal)) = catIR := rfl
theorem catFR_eq : ((fun a b => concatenate Cert.ReferenceIdeal.S3300000 0 [⟨Cert.ReferenceIdeal.S3200000, a⟩, ⟨Cert.ReferenceIdeal.S100000, b⟩] Cert.ReferenceIdeal.Gen.concatenates_S3200000_S100000_S3300000_d0) :
    (⟨Cert.ReferenceIdeal.S3200000, .f32⟩ : BufTy).Contents (Elt Ideal) → (⟨Cert.ReferenceIdeal.S100000, .f32⟩ : BufTy).Contents (Elt Ideal) → (⟨Cert.ReferenceIdeal.S3300000, .f32⟩ : BufTy).Contents (Elt Ideal)) = catFR := rfl
/-- Two index vectors laid end to end. -/
def catIK (a : (⟨Cert.KernelIdeal.S3200000, .i32⟩ : BufTy).Contents (Elt Ideal)) (b : (⟨Cert.KernelIdeal.S100000, .i32⟩ : BufTy).Contents (Elt Ideal)) :
    (⟨Cert.KernelIdeal.S3300000, .i32⟩ : BufTy).Contents (Elt Ideal) :=
  concatenate Cert.KernelIdeal.S3300000 0 [⟨Cert.KernelIdeal.S3200000, a⟩, ⟨Cert.KernelIdeal.S100000, b⟩] Cert.KernelIdeal.Gen.concatenates_S3200000_S100000_S3300000_d0
/-- Two float vectors laid end to end. -/
def catFK (a : (⟨Cert.KernelIdeal.S3200000, .f32⟩ : BufTy).Contents (Elt Ideal)) (b : (⟨Cert.KernelIdeal.S100000, .f32⟩ : BufTy).Contents (Elt Ideal)) :
    (⟨Cert.KernelIdeal.S3300000, .f32⟩ : BufTy).Contents (Elt Ideal) :=
  concatenate Cert.KernelIdeal.S3300000 0 [⟨Cert.KernelIdeal.S3200000, a⟩, ⟨Cert.KernelIdeal.S100000, b⟩] Cert.KernelIdeal.Gen.concatenates_S3200000_S100000_S3300000_d0
theorem catIK_eq : ((fun a b => concatenate Cert.KernelIdeal.S3300000 0 [⟨Cert.KernelIdeal.S3200000, a⟩, ⟨Cert.KernelIdeal.S100000, b⟩] Cert.KernelIdeal.Gen.concatenates_S3200000_S100000_S3300000_d0) :
    (⟨Cert.KernelIdeal.S3200000, .i32⟩ : BufTy).Contents (Elt Ideal) → (⟨Cert.KernelIdeal.S100000, .i32⟩ : BufTy).Contents (Elt Ideal) → (⟨Cert.KernelIdeal.S3300000, .i32⟩ : BufTy).Contents (Elt Ideal)) = catIK := rfl
theorem catFK_eq : ((fun a b => concatenate Cert.KernelIdeal.S3300000 0 [⟨Cert.KernelIdeal.S3200000, a⟩, ⟨Cert.KernelIdeal.S100000, b⟩] Cert.KernelIdeal.Gen.concatenates_S3200000_S100000_S3300000_d0) :
    (⟨Cert.KernelIdeal.S3200000, .f32⟩ : BufTy).Contents (Elt Ideal) → (⟨Cert.KernelIdeal.S100000, .f32⟩ : BufTy).Contents (Elt Ideal) → (⟨Cert.KernelIdeal.S3300000, .f32⟩ : BufTy).Contents (Elt Ideal)) = catFK := rfl

/-- The reference's operations 1–19: the edge arrays' pieces and the in-degree's comparison and reciprocal root. -/
def segPA : List (HloOp Cert.ReferenceIdeal.τ Cert.ReferenceIdeal.sig (Elt Ideal)) := rops.take 19
/-- Operations 20–22: the `where`. -/
def segPB : List (HloOp Cert.ReferenceIdeal.τ Cert.ReferenceIdeal.sig (Elt Ideal)) := (rops.drop 19).take 3
/-- Operations 23–42: the factor at each edge's source and destination, and the weights. -/
def segPC : List (HloOp Cert.ReferenceIdeal.τ Cert.ReferenceIdeal.sig (Elt Ideal)) := (rops.drop 22).take 20

theorem prefix_split : rops.take 42 = segPA ++ (segPB ++ segPC) := by
  simp only [segPA, segPB, segPC, rops, Cert.ReferenceIdeal.RunP.ops, List.drop_succ_cons, List.drop_zero, List.take_succ_cons,
    List.take_zero, List.cons_append, List.nil_append]

variable (WR : Valuation Cert.ReferenceIdeal.τ Cert.ReferenceIdeal.sig (Elt Ideal)) (WK : Valuation Cert.KernelIdeal.τ Cert.KernelIdeal.sig (Elt Ideal))

/-! ## The first stretch -/

set_option maxHeartbeats 2000000 in
theorem simA_v5 (e1 : WR (Proc.devRef .tc Cert.ReferenceIdeal.main_arg1) = WK (Proc.devRef .tc Cert.KernelIdeal.main_arg1)) :
    after segPA WR (Proc.devRef .tc Cert.ReferenceIdeal.main_v5) = after Cert.KernelIdeal.Gen.hostOps0 WK (Proc.devRef .tc Cert.KernelIdeal.main_v5) := by
  simp only [segPA, rops, Cert.ReferenceIdeal.RunP.ops, List.drop_succ_cons, List.drop_zero, List.take_succ_cons, List.take_zero, Cert.KernelIdeal.Gen.hostOps0, catIR_eq, catFR_eq, catIK_eq, catFK_eq]
  after_results_simp
  rw [e1]
  rfl
set_option maxHeartbeats 2000000 in
theorem simA_v6 (e1 : WR (Proc.devRef .tc Cert.ReferenceIdeal.main_arg1) = WK (Proc.devRef .tc Cert.KernelIdeal.main_arg1)) :
    after segPA WR (Proc.devRef .tc Cert.ReferenceIdeal.main_v6) = after Cert.KernelIdeal.Gen.hostOps0 WK (Proc.devRef .tc Cert.KernelIdeal.main_v6) := by
  simp only [segPA, rops, Cert.ReferenceIdeal.RunP.ops, List.drop_succ_cons, List.drop_zero, List.take_succ_cons, List.take_zero, Cert.KernelIdeal.Gen.hostOps0, catIR_eq, catFR_eq, catIK_eq, catFK_eq]
  after_results_simp
  rw [e1]
  rfl
set_option maxHeartbeats 2000000 in
theorem simA_v8 (e1 : WR (Proc.devRef .tc Cert.ReferenceIdeal.main_arg1) = WK (Proc.devRef .tc Cert.KernelIdeal.main_arg1)) (e2 : WR (Proc.devRef .tc Cert.ReferenceIdeal.main_arg2) = WK (Proc.devRef .tc Cert.KernelIdeal.main_arg2)) :
    after segPA WR (Proc.devRef .tc Cert.ReferenceIdeal.main_v8) = after Cert.KernelIdeal.Gen.hostOps0 WK (Proc.devRef .tc Cert.KernelIdeal.main_v8) := by
  simp only [segPA, rops, Cert.ReferenceIdeal.RunP.ops, List.drop_succ_cons, List.drop_zero, List.take_succ_cons, List.take_zero, Cert.KernelIdeal.Gen.hostOps0, catIR_eq, catFR_eq, catIK_eq, catFK_eq]
  after_results_simp
  rw [e2]
set_option maxHeartbeats 4000000 in
theorem simA_v13 (e1 : WR (Proc.devRef .tc Cert.ReferenceIdeal.main_arg1) = WK (Proc.devRef .tc Cert.KernelIdeal.main_arg1)) (e2 : WR (Proc.devRef .tc Cert.ReferenceIdeal.main_arg2) = WK (Proc.devRef .tc Cert.KernelIdeal.main_arg2)) :
    after segPA WR (Proc.devRef .tc Cert.ReferenceIdeal.main_v13) = after Cert.KernelIdeal.Gen.hostOps0 WK (Proc.devRef .tc Cert.KernelIdeal.main_v13) := by
  simp only [segPA, rops, Cert.ReferenceIdeal.RunP.ops, List.drop_succ_cons, List.drop_zero, List.take_succ_cons, List.take_zero, Cert.KernelIdeal.Gen.hostOps0, catIR_eq, catFR_eq, catIK_eq, catFK_eq]
  after_results_simp
  rw [e1, e2]
  rfl
set_option maxHeartbeats 4000000 in
theorem simA_v14 (e1 : WR (Proc.devRef .tc Cert.ReferenceIdeal.main_arg1) = WK (Proc.devRef .tc Cert.KernelIdeal.main_arg1)) (e2 : WR (Proc.devRef .tc Cert.ReferenceIdeal.main_arg2) = WK (Proc.devRef .tc Cert.KernelIdeal.main_arg2)) :
    after segPA WR (Proc.devRef .tc Cert.ReferenceIdeal.main_v14) = after Cert.KernelIdeal.Gen.hostOps0 WK (Proc.devRef .tc Cert.KernelIdeal.main_v14) := by
  simp only [segPA, rops, Cert.ReferenceIdeal.RunP.ops, List.drop_succ_cons, List.drop_zero, List.take_succ_cons, List.take_zero, Cert.KernelIdeal.Gen.hostOps0, catIR_eq, catFR_eq, catIK_eq, catFK_eq]
  after_results_simp
  rw [e1, e2]
  rfl
theorem simA_cst_2 : after segPA WR (Proc.devRef .tc Cert.ReferenceIdeal.main_cst_2) = after Cert.KernelIdeal.Gen.hostOps0 WK (Proc.devRef .tc Cert.KernelIdeal.main_cst_2) := by
  simp only [segPA, rops, Cert.ReferenceIdeal.RunP.ops, List.drop_succ_cons, List.drop_zero, List.take_succ_cons, List.take_zero, Cert.KernelIdeal.Gen.hostOps0, catIR_eq, catFR_eq, catIK_eq, catFK_eq]
  after_results_simp

/-! ## The `where` -/

theorem whereR : after segPB WR (Proc.devRef .tc Cert.ReferenceIdeal.main_v15)
    = (select (WR (Proc.devRef .tc Cert.ReferenceIdeal.main_v13) : IVec Cert.ReferenceIdeal.S100000 1) (WR (Proc.devRef .tc Cert.ReferenceIdeal.main_v14) : FVec Ideal Cert.ReferenceIdeal.S100000 .f32)
        (broadcastInDim Cert.ReferenceIdeal.S100000 ![] Cert.ReferenceIdeal.Gen.bcast_S_S100000 (WR (Proc.devRef .tc Cert.ReferenceIdeal.main_cst_2) : FVec Ideal Cert.ReferenceIdeal.S_ .f32)) : FVec Ideal Cert.ReferenceIdeal.S100000 .f32) := by
  simp only [segPB, rops, Cert.ReferenceIdeal.RunP.ops, List.drop_succ_cons, List.drop_zero, List.take_succ_cons, List.take_zero]
  after_results_simp
  simp only [R.toBuf_main_cst_2, R.ofBuf_main_cst_2, R.toBuf_main_call0_v0, R.ofBuf_main_call0_v0, R.toBuf_main_call0_v1, R.ofBuf_main_call0_v1, R.toBuf_main_v13, R.ofBuf_main_v13, R.toBuf_main_v14, R.ofBuf_main_v14, R.toBuf_main_v15, R.ofBuf_main_v15]
  rfl

theorem whereK : after Cert.KernelIdeal.Gen.hostOps0_1 WK (Proc.devRef .tc Cert.KernelIdeal.main_v15)
    = (select (WK (Proc.devRef .tc Cert.KernelIdeal.main_v13) : IVec Cert.KernelIdeal.S100000 1) (WK (Proc.devRef .tc Cert.KernelIdeal.main_v14) : FVec Ideal Cert.KernelIdeal.S100000 .f32)
        (broadcastInDim Cert.KernelIdeal.S100000 ![] Cert.KernelIdeal.Gen.bcast_S_S100000 (WK (Proc.devRef .tc Cert.KernelIdeal.main_cst_2) : FVec Ideal Cert.KernelIdeal.S_ .f32)) : FVec Ideal Cert.KernelIdeal.S100000 .f32) := by
  simp only [Cert.KernelIdeal.Gen.hostOps0_1]
  after_results_simp
  simp only [K.toBuf_main_cst_2, K.ofBuf_main_cst_2, K.toBuf_main_call0_v0, K.ofBuf_main_call0_v0, K.toBuf_main_call0_v1, K.ofBuf_main_call0_v1, K.toBuf_main_v13, K.ofBuf_main_v13, K.toBuf_main_v14, K.ofBuf_main_v14, K.toBuf_main_v15, K.ofBuf_main_v15]
  rfl

theorem segPB_keep_v5 : after segPB WR (Proc.devRef .tc Cert.ReferenceIdeal.main_v5) = WR (Proc.devRef .tc Cert.ReferenceIdeal.main_v5) := by
  simp only [segPB, rops, Cert.ReferenceIdeal.RunP.ops, List.drop_succ_cons, List.drop_zero, List.take_succ_cons, List.take_zero]
  after_results_simp
theorem segPB_keep_v6 : after segPB WR (Proc.devRef .tc Cert.ReferenceIdeal.main_v6) = WR (Proc.devRef .tc Cert.ReferenceIdeal.main_v6) := by
  simp only [segPB, rops, Cert.ReferenceIdeal.RunP.ops, List.drop_succ_cons, List.drop_zero, List.take_succ_cons, List.take_zero]
  after_results_simp
theorem segPB_keep_v8 : after segPB WR (Proc.devRef .tc Cert.ReferenceIdeal.main_v8) = WR (Proc.devRef .tc Cert.ReferenceIdeal.main_v8) := by
  simp only [segPB, rops, Cert.ReferenceIdeal.RunP.ops, List.drop_succ_cons, List.drop_zero, List.take_succ_cons, List.take_zero]
  after_results_simp
theorem hostOps0_1_keep_v5 : after Cert.KernelIdeal.Gen.hostOps0_1 WK (Proc.devRef .tc Cert.KernelIdeal.main_v5) = WK (Proc.devRef .tc Cert.KernelIdeal.main_v5) := by
  simp only [Cert.KernelIdeal.Gen.hostOps0_1]
  after_results_simp
theorem hostOps0_1_keep_v6 : after Cert.KernelIdeal.Gen.hostOps0_1 WK (Proc.devRef .tc Cert.KernelIdeal.main_v6) = WK (Proc.devRef .tc Cert.KernelIdeal.main_v6) := by
  simp only [Cert.KernelIdeal.Gen.hostOps0_1]
  after_results_simp
theorem hostOps0_1_keep_v8 : after Cert.KernelIdeal.Gen.hostOps0_1 WK (Proc.devRef .tc Cert.KernelIdeal.main_v8) = WK (Proc.devRef .tc Cert.KernelIdeal.main_v8) := by
  simp only [Cert.KernelIdeal.Gen.hostOps0_1]
  after_results_simp

/-! ## The last stretch -/

set_option maxHeartbeats 4000000 in
theorem simC_v31 (h5 : WR (Proc.devRef .tc Cert.ReferenceIdeal.main_v5) = WK (Proc.devRef .tc Cert.KernelIdeal.main_v5)) (h6 : WR (Proc.devRef .tc Cert.ReferenceIdeal.main_v6) = WK (Proc.devRef .tc Cert.KernelIdeal.main_v6))
    (h8 : WR (Proc.devRef .tc Cert.ReferenceIdeal.main_v8) = WK (Proc.devRef .tc Cert.KernelIdeal.main_v8)) (h15 : WR (Proc.devRef .tc Cert.ReferenceIdeal.main_v15) = WK (Proc.devRef .tc Cert.KernelIdeal.main_v15)) :
    after segPC WR (Proc.devRef .tc Cert.ReferenceIdeal.main_v31) = after Cert.KernelIdeal.Gen.hostOps0_2 WK (Proc.devRef .tc Cert.KernelIdeal.main_v31) := by
  simp only [segPC, rops, Cert.ReferenceIdeal.RunP.ops, List.drop_succ_cons, List.drop_zero, List.take_succ_cons, List.take_zero, Cert.KernelIdeal.Gen.hostOps0_2, catIR_eq, catFR_eq, catIK_eq, catFK_eq]
  after_results_simp
  rw [h5, h6, h8, h15]
  rfl

theorem segPC_keep_v5 : after segPC WR (Proc.devRef .tc Cert.ReferenceIdeal.main_v5) = WR (Proc.devRef .tc Cert.ReferenceIdeal.main_v5) := by
  simp only [segPC, rops, Cert.ReferenceIdeal.RunP.ops, List.drop_succ_cons, List.drop_zero, List.take_succ_cons, List.take_zero]
  after_results_simp
theorem segPC_keep_v6 : after segPC WR (Proc.devRef .tc Cert.ReferenceIdeal.main_v6) = WR (Proc.devRef .tc Cert.ReferenceIdeal.main_v6) := by
  simp only [segPC, rops, Cert.ReferenceIdeal.RunP.ops, List.drop_succ_cons, List.drop_zero, List.take_succ_cons, List.take_zero]
  after_results_simp
theorem hostOps0_2_keep_v5 : after Cert.KernelIdeal.Gen.hostOps0_2 WK (Proc.devRef .tc Cert.KernelIdeal.main_v5) = WK (Proc.devRef .tc Cert.KernelIdeal.main_v5) := by
  simp only [Cert.KernelIdeal.Gen.hostOps0_2]
  after_results_simp
theorem hostOps0_2_keep_v6 : after Cert.KernelIdeal.Gen.hostOps0_2 WK (Proc.devRef .tc Cert.KernelIdeal.main_v6) = WK (Proc.devRef .tc Cert.KernelIdeal.main_v6) := by
  simp only [Cert.KernelIdeal.Gen.hostOps0_2]
  after_results_simp

/-! ## The three arrays -/

section
variable (e1 : WR (Proc.devRef .tc Cert.ReferenceIdeal.main_arg1) = WK (Proc.devRef .tc Cert.KernelIdeal.main_arg1)) (e2 : WR (Proc.devRef .tc Cert.ReferenceIdeal.main_arg2) = WK (Proc.devRef .tc Cert.KernelIdeal.main_arg2))
include e1

/-- The sources. -/
theorem prefix_v5 :
    after ((Cert.ReferenceIdeal.RunP.ops (F := Ideal)).take 42) WR (Proc.devRef .tc Cert.ReferenceIdeal.main_v5)
      = after Cert.KernelIdeal.Gen.hostOps0_2 (after Cert.KernelIdeal.Gen.hostOps0_1 (after Cert.KernelIdeal.Gen.hostOps0 WK)) (Proc.devRef .tc Cert.KernelIdeal.main_v5) := by
  show after (rops.take 42) WR _ = _
  rw [prefix_split, after_append, after_append, segPC_keep_v5, segPB_keep_v5, hostOps0_2_keep_v5, hostOps0_1_keep_v5]
  exact simA_v5 WR WK e1

/-- The destinations. -/
theorem prefix_v6 :
    after ((Cert.ReferenceIdeal.RunP.ops (F := Ideal)).take 42) WR (Proc.devRef .tc Cert.ReferenceIdeal.main_v6)
      = after Cert.KernelIdeal.Gen.hostOps0_2 (after Cert.KernelIdeal.Gen.hostOps0_1 (after Cert.KernelIdeal.Gen.hostOps0 WK)) (Proc.devRef .tc Cert.KernelIdeal.main_v6) := by
  show after (rops.take 42) WR _ = _
  rw [prefix_split, after_append, after_append, segPC_keep_v6, segPB_keep_v6, hostOps0_2_keep_v6, hostOps0_1_keep_v6]
  exact simA_v6 WR WK e1

include e2

/-- The normalisation weights. -/
theorem prefix_v31 :
    after ((Cert.ReferenceIdeal.RunP.ops (F := Ideal)).take 42) WR (Proc.devRef .tc Cert.ReferenceIdeal.main_v31)
      = after Cert.KernelIdeal.Gen.hostOps0_2 (after Cert.KernelIdeal.Gen.hostOps0_1 (after Cert.KernelIdeal.Gen.hostOps0 WK)) (Proc.devRef .tc Cert.KernelIdeal.main_v31) := by
  show after (rops.take 42) WR _ = _
  rw [prefix_split, after_append, after_append]
  refine simC_v31 _ _ ?_ ?_ ?_ ?_
  · rw [segPB_keep_v5, hostOps0_1_keep_v5]; exact simA_v5 WR WK e1
  · rw [segPB_keep_v6, hostOps0_1_keep_v6]; exact simA_v6 WR WK e1
  · rw [segPB_keep_v8, hostOps0_1_keep_v8]; exact simA_v8 WR WK e1 e2
  · rw [whereR, whereK, simA_v13 WR WK e1 e2, simA_v14 WR WK e1 e2, simA_cst_2 WR WK]

end

/-! The first 42 operations write no float argument. -/

theorem prefix_keep_arg0 :
    after ((Cert.ReferenceIdeal.RunP.ops (F := Ideal)).take 42) WR (Proc.devRef .tc Cert.ReferenceIdeal.main_arg0) = WR (Proc.devRef .tc Cert.ReferenceIdeal.main_arg0) := by
  simp only [Cert.ReferenceIdeal.RunP.ops, List.take_succ_cons, List.take_zero]
  after_results_simp
theorem prefix_keep_arg3 :
    after ((Cert.ReferenceIdeal.RunP.ops (F := Ideal)).take 42) WR (Proc.devRef .tc Cert.ReferenceIdeal.main_arg3) = WR (Proc.devRef .tc Cert.ReferenceIdeal.main_arg3) := by
  simp only [Cert.ReferenceIdeal.RunP.ops, List.take_succ_cons, List.take_zero]
  after_results_simp
theorem prefix_keep_arg4 :
    after ((Cert.ReferenceIdeal.RunP.ops (F := Ideal)).take 42) WR (Proc.devRef .tc Cert.ReferenceIdeal.main_arg4) = WR (Proc.devRef .tc Cert.ReferenceIdeal.main_arg4) := by
  simp only [Cert.ReferenceIdeal.RunP.ops, List.take_succ_cons, List.take_zero]
  after_results_simp
theorem prefix_keep_arg5 :
    after ((Cert.ReferenceIdeal.RunP.ops (F := Ideal)).take 42) WR (Proc.devRef .tc Cert.ReferenceIdeal.main_arg5) = WR (Proc.devRef .tc Cert.ReferenceIdeal.main_arg5) := by
  simp only [Cert.ReferenceIdeal.RunP.ops, List.take_succ_cons, List.take_zero]
  after_results_simp
theorem prefix_keep_arg6 :
    after ((Cert.ReferenceIdeal.RunP.ops (F := Ideal)).take 42) WR (Proc.devRef .tc Cert.ReferenceIdeal.main_arg6) = WR (Proc.devRef .tc Cert.ReferenceIdeal.main_arg6) := by
  simp only [Cert.ReferenceIdeal.RunP.ops, List.take_succ_cons, List.take_zero]
  after_results_simp

end Cert.Bridge

end
-- ==== Proof.lean ====
/-
  A two-layer graph convolution with a log-softmax head: the tiled kernel against its reference, on the extended reals.

  Both programs first build the edge arrays of a graph on 100000 nodes — the 3200000 given edges' sources and
  destinations with a self-loop appended for every node, the edge weights with ones appended, each node's weighted
  in-degree `deg`, the factor `deg^(−1/2)` where `deg > 0` and `0` elsewhere, and each edge's weight multiplied by
  that factor at its source and at its destination — by the same 42 host operations. Then, twice, a dense stage is
  followed by the aggregation `out[d] = Σ_{edges (s → d)} norm · h[s]` (a row gather, a product with the edge's
  weight, a row scatter-add), again the same host operations on both sides. The two programs differ in the three
  dense stages only, which the kernel runs as three regions of 25 row blocks of 4000 nodes:

    region 0      h ↦ x · W₁                                      the reference: one product of the whole arrays
    region 1      a ↦ max (a + b₁, 0) · W₂                        the reference: broadcast add, maximum, product
    region 2      a ↦ log-softmax of the rows of a + b₂           the reference: broadcast add, jax.nn.log_softmax

  A row of a product, of a maximum, of a log-softmax depends on that row of the operand only, so each region's result
  array is the reference's stage applied to the whole arrays: the entries are the same sums, the same maxima, the
  same `(r q − M) − log Σ exp (r k − M)`, term by term (Region0, Region1, Region2 over LibRowBlock, LibKeepdims,
  LibHostKeepdims, LibRowLogSoftmax). The reference's log-softmax takes one more maximum, with −∞, which changes
  nothing. No step cancels, distributes or reorders anything beyond a block's rows against the array's rows, so
  nothing is asked of the inputs: the precondition is never opened.

  The kernel's run is read through the fold of its host stretches and regions (KernelRun, KernelValue, Glue), the
  reference's through its 100 operations in stretches (RefOps, RefRun, Folds, Bridge, Prefix); `algebraic` puts them
  side by side. The frames are the generated ones; the idealization rewrote nothing, so `preserves` is trivial.
-/
import proofs.«113998_j57312043598543_2_alg».proof.Defs
import proofs.«113998_j57312043598543_2_alg».proof.Proof.Gen.Kernel
import proofs.«113998_j57312043598543_2_alg».proof.Proof.Gen.Kernel.Skeleton
import proofs.«113998_j57312043598543_2_alg».proof.Proof.Gen.Kernel.Launch
import proofs.«113998_j57312043598543_2_alg».proof.Proof.Gen.Kernel.Points
import proofs.«113998_j57312043598543_2_alg».proof.Proof.Gen.Kernel.Frame
import proofs.«113998_j57312043598543_2_alg».proof.Proof.Gen.KernelIdeal
import proofs.«113998_j57312043598543_2_alg».proof.Proof.Gen.KernelIdeal.Skeleton
import proofs.«113998_j57312043598543_2_alg».proof.Proof.Gen.KernelIdeal.Launch
import proofs.«113998_j57312043598543_2_alg».proof.Proof.Gen.KernelIdeal.Points
import proofs.«113998_j57312043598543_2_alg».proof.Proof.Gen.KernelIdeal.Frame
import proofs.«113998_j57312043598543_2_alg».proof.Proof.Gen.ReferenceIdeal
import proofs.«113998_j57312043598543_2_alg».proof.Proof.Gen.Pre_finite_inputs
import proofs.«113998_j57312043598543_2_alg».proof.Proof.Bridge
import proofs.«113998_j57312043598543_2_alg».proof.Proof.Prefix
import Idealize.ShloMosaic.Adequacy
import Idealize.ShloMosaic.Init

set_option maxRecDepth 65536

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both idealized programs end with the kernel's fold at the result buffer:
    the kernel by its run, the reference because its last 58 operations are the kernel's two-layer function of the
    edge arrays its first 42 operations leave, which are the kernel's. -/
theorem algebraic : Cert.algebraic_KernelIdeal_ReferenceIdeal := by
  intro m ρ m' ρ' _ hagree
  refine ⟨fun c => Cert.KernelIdeal.Gen.W8 m ρ c (Proc.devRef .tc Cert.KernelIdeal.main_v62), ?_, ?_⟩
  · refine (θ_run Cert.KernelIdeal.defs _ _).mono (fun r h c => ?_) (Cert.KernelIdeal.RunK.run_all (F := Ideal) m ρ)
    exact ⟨Cert.KernelIdeal.RunK.read_final m ρ h c Cert.KernelIdeal.main_v62 (by decide),
      (Cert.KernelIdeal.RunK.read_final m ρ h c Cert.KernelIdeal.main_arg0 (by decide)).trans (Cert.KernelIdeal.Gen.W8_main_arg0 m ρ c),
      (Cert.KernelIdeal.RunK.read_final m ρ h c Cert.KernelIdeal.main_arg1 (by decide)).trans (Cert.KernelIdeal.Gen.W8_main_arg1 m ρ c),
      (Cert.KernelIdeal.RunK.read_final m ρ h c Cert.KernelIdeal.main_arg2 (by decide)).trans (Cert.KernelIdeal.Gen.W8_main_arg2 m ρ c),
      (Cert.KernelIdeal.RunK.read_final m ρ h c Cert.KernelIdeal.main_arg3 (by decide)).trans (Cert.KernelIdeal.Gen.W8_main_arg3 m ρ c),
      (Cert.KernelIdeal.RunK.read_final m ρ h c Cert.KernelIdeal.main_arg4 (by decide)).trans (Cert.KernelIdeal.Gen.W8_main_arg4 m ρ c),
      (Cert.KernelIdeal.RunK.read_final m ρ h c Cert.KernelIdeal.main_arg5 (by decide)).trans (Cert.KernelIdeal.Gen.W8_main_arg5 m ρ c),
      (Cert.KernelIdeal.RunK.read_final m ρ h c Cert.KernelIdeal.main_arg6 (by decide)).trans (Cert.KernelIdeal.Gen.W8_main_arg6 m ρ c)⟩
  · refine (θ_run Cert.ReferenceIdeal.defs _ _).mono (fun r h c => ⟨(h c).1.trans ?_, (h c).2⟩)
      (Cert.ReferenceIdeal.RefRun.run (F := Ideal) m' ρ')
    obtain ⟨a0, a1, a2, a3, a4, a5, a6⟩ := hagree c
    beta_reduce
    rw [Cert.KernelIdeal.ValueK.W8_v62 m ρ c]
    exact Cert.Bridge.tail_eq (Cert.ReferenceIdeal.RefRun.afterPrefix m' c) _ _ _ _ _ _ _ _
      (Cert.Bridge.prefix_v5 (launchContents m' c) (Cert.KernelIdeal.Gen.W0 m ρ c) a1)
      (Cert.Bridge.prefix_v6 (launchContents m' c) (Cert.KernelIdeal.Gen.W0 m ρ c) a1)
      (Cert.Bridge.prefix_v31 (launchContents m' c) (Cert.KernelIdeal.Gen.W0 m ρ c) a1 a2)
      ((Cert.Bridge.prefix_keep_arg0 (launchContents m' c)).trans a0)
      ((Cert.Bridge.prefix_keep_arg3 (launchContents m' c)).trans a3)
      ((Cert.Bridge.prefix_keep_arg4 (launchContents m' c)).trans a4)
      ((Cert.Bridge.prefix_keep_arg5 (launchContents m' c)).trans a5)
      ((Cert.Bridge.prefix_keep_arg6 (launchContents m' c)).trans a6)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
